-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64 .f32) (main_arg9 : FVec F S64x40 .f32) (main_arg10 : FVec F S40 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x40 .f32 := Host.absf main_arg9
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S64x40 .f32) (main_arg10 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S4000x128 : Shape := ⟨2, ![4000, 128]⟩
abbrev S4000x64 : Shape := ⟨2, ![4000, 64]⟩
abbrev S1700000x64 : Shape := ⟨2, ![1700000, 64]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 95
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x40, .f32⟩
  | .hbm, ⟨10, _⟩ => ⟨S40, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S100000, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S1700000x1, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x64, .f32⟩
  | .hbm, ⟨67, _⟩ => ⟨S1700000x64, .f32⟩
  | .hbm, ⟨68, _⟩ => ⟨S_, .f32⟩
  | .hbm, ⟨69, _⟩ => ⟨S100000x64, .f32⟩
  | .hbm, ⟨70, _⟩ => ⟨S1700000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S1700000x1, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x64, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S1x40, .f32⟩
  | .hbm, ⟨94, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S64x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S64x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S1x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S64x40, .f32⟩
  | .local _ .vmem, ⟨29, _⟩ => ⟨S1x40, .f32⟩
  | .local _ .vmem, ⟨30, _⟩ => ⟨S4000x40, .f32⟩
  | .local _ .vmem, ⟨31, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x64_S4000x64_1_0_0_1_n_n_wf : DotDims.WF S4000x128 S128x64 S4000x64 [1] [0] [0] [1] [] []
  dot_S4000x64_S64x64_S4000x64_1_0_0_1_n_n_wf : DotDims.WF S4000x64 S64x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x40_S4000x40_1_0_0_1_n_n_wf : DotDims.WF S4000x64 S64x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x40.size a ≤ S64x40.size a
  hwx5_1 : ∀ i : grid5.Coords, EltTy.bits .f32 = 32 ∨ (Rect.block (s := S64x40) S64x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x40.size a ≤ S100000x40.size a
  hwx5_3 : ∀ i : grid5.Coords, EltTy.bits .f32 = 32 ∨ (Rect.block (s := S100000x40) S4000x40.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v65) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S4000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x40, .f32⟩
  | 10 => ⟨S40, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S100000, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S_, .f32⟩
  | 59 => ⟨S100000x64, .f32⟩
  | 60 => ⟨S100000x64, .i1⟩
  | 61 => ⟨S_, .f32⟩
  | 62 => ⟨S100000x64, .f32⟩
  | 63 => ⟨S100000x64, .f32⟩
  | 64 => ⟨S100000x64, .f32⟩
  | 65 => ⟨S100000x64, .f32⟩
  | 66 => ⟨S1700000x1, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x64, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S_, .f32⟩
  | 87 => ⟨S100000x64, .f32⟩
  | 88 => ⟨S100000x64, .i1⟩
  | 89 => ⟨S_, .f32⟩
  | 90 => ⟨S100000x64, .f32⟩
  | 91 => ⟨S100000x64, .f32⟩
  | 92 => ⟨S100000x64, .f32⟩
  | 93 => ⟨S100000x64, .f32⟩
  | 94 => ⟨S1700000x1, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S_, .f32⟩
  | 115 => ⟨S100000x64, .f32⟩
  | 116 => ⟨S100000x64, .i1⟩
  | 117 => ⟨S_, .f32⟩
  | 118 => ⟨S100000x64, .f32⟩
  | 119 => ⟨S100000x64, .f32⟩
  | 120 => ⟨S100000x64, .f32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_11 : Ref sig .tc := ⟨.hbm, 95, rfl⟩
abbrev main_v57 : Ref sig .tc := ⟨.hbm, 96, rfl⟩
abbrev main_v58 : Ref sig .tc := ⟨.hbm, 97, rfl⟩
abbrev main_c_12 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_13 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_14 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_call4_cst : Ref sig .tc := ⟨.hbm, 125, rfl⟩
abbrev main_call4_v0 : Ref sig .tc := ⟨.hbm, 126, rfl⟩
abbrev main_call4_cst_0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_v6 : Ref sig .tc := ⟨.hbm, 133, rfl⟩
abbrev main_call4_cst_1 : Ref sig .tc := ⟨.hbm, 134, rfl⟩
abbrev main_call4_v7 : Ref sig .tc := ⟨.hbm, 135, rfl⟩
abbrev main_call4_v8 : Ref sig .tc := ⟨.hbm, 136, rfl⟩
abbrev main_call4_v9 : Ref sig .tc := ⟨.hbm, 137, rfl⟩
abbrev main_call4_v10 : Ref sig .tc := ⟨.hbm, 138, rfl⟩
abbrev main_v77 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Stages.lean ====
/-
  The network's stages as functions of whole tables.

  A graph of N = 100000 nodes and E = 1600000 weighted edges (a 2 × E table of endpoints, a weight per edge) gets a self
  loop of weight 1 at every node; with deg(v) the total weight of the edges (loops included) that END at v, and
  s(v) = deg(v)^(-1/2) where deg(v) > 0 and 0 elsewhere, every edge e from src(e) to dst(e) carries the coefficient
  norm(e) = s(src e) · w(e) · s(dst e). A negative endpoint counts from the end (N is added to it) before it is used as a
  row number.

  One propagation step sends a table h of N rows to the table whose row v is the sum, over the edges e ending at v, of
  norm(e) · h(src e). The network is: a dense layer with the leaky rectifier (slope 0.01 on the negatives, the identity
  elsewhere); twice [a product with a square weight table, a propagation step, a bias, the leaky rectifier]; a last dense
  layer; and in every row the logarithm of the softmax: z − log Σ exp z with z = x − max x, the maximum and the sum over
  the row's 40 entries.

  Every stage is written with the operations, in the order and grouping, of the plain array program, so that the fold of
  that program's operations is this composition as it stands.
-/
import proofs.«161979_j73323681677856_1_alg».proof.ReferenceIdeal

noncomputable section

namespace Cert.Stages

open Idealize.ShloMosaic Cert.ReferenceIdeal Cert.ReferenceIdeal.Facts₀ Cert.ReferenceIdeal.Facts

variable {F : FTy → Type} [FloatOps F] [Cert.ReferenceIdeal.Facts]

/-- A table of shape `S` and element type `e`. -/
abbrev T (F : FTy → Type) (S : Shape) (e : EltTy) : Type := (⟨S, e⟩ : BufTy).Contents (Elt F)

/-- Row 0 of the endpoint table, then the nodes 0 … N-1: where each edge (and each self loop) starts. -/
def srcOf (e : T F S2x1600000 .i32) : T F S1700000 .i32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Row 1 of the endpoint table, then the nodes 0 … N-1: where each edge (and each self loop) ends. -/
def dstOf (e : T F S2x1600000 .i32) : T F S1700000 .i32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- The edge weights, then weight 1 for every self loop. -/
def weightOf (w : T F S1600000 .f32) : T F S1700000 .f32 :=
  concatenate S1700000 0 [⟨S1600000, w⟩, ⟨S100000, broadcastInDim S100000 ![] bcast_S_S100000 (constant S_ .f32 0x3F800000#32)⟩] concatenates_S1600000_S100000_S1700000_d0

/-- A list of E + N entries as a one-column table. -/
def col {e : EltTy} (s : T F S1700000 e) : T F S1700000x1 e :=
  broadcastInDim S1700000x1 ![0] bcast_S1700000_S1700000x1_0 s

/-- A negative row number counts from the end: N is added to it. -/
def wrap (s : T F S1700000 .i32) : T F S1700000 .i32 :=
  select (cmpi .slt s (broadcastInDim S1700000 ![] bcast_S_S1700000 (constantI S_ 32 0#32)))
    (addi s (broadcastInDim S1700000 ![] bcast_S_S1700000 (constantI S_ 32 100000#32))) s

/-- deg(v): the total weight of the edges ending at v. -/
def degOf (dst : T F S1700000 .i32) (w : T F S1700000 .f32) : T F S100000 .f32 :=
  Host.scatterAdd scatter_S100000_S1700000x1_S1700000_n_0_0_1
    (broadcastInDim S100000 ![] bcast_S_S100000 (constant S_ .f32 0x00000000#32)) (col dst) w

/-- s(v) = deg(v)^(-1/2) where deg(v) > 0, and 0 elsewhere. -/
def scaleOf (deg : T F S100000 .f32) : T F S100000 .f32 :=
  select (cmpf .ogt deg (broadcastInDim S100000 ![] bcast_S_S100000 (constant S_ .f32 0x00000000#32))) (Host.rsqrt deg)
    (broadcastInDim S100000 ![] bcast_S_S100000 (id (constant S_ .f32 0x00000000#32)))

/-- norm(e) = s(src e) · w(e) · s(dst e), from the scale table, the two endpoint lists and the weights. -/
def normFrom (s : T F S100000 .f32) (src dst : T F S1700000 .i32) (wt : T F S1700000 .f32) : T F S1700000 .f32 :=
  mulf (mulf (Host.gather gather_S100000_S1700000x1_S1700000_n_0_n_n_0_1_1 s (col (wrap src))) wt)
    (Host.gather gather_S100000_S1700000x1_S1700000_n_0_n_n_0_1_1 s (col (wrap dst)))

/-- The coefficients of all edges and self loops, from the endpoint table and the edge weights. -/
def normOf (e : T F S2x1600000 .i32) (w : T F S1600000 .f32) : T F S1700000 .f32 :=
  normFrom (scaleOf (degOf (dstOf e) (weightOf w))) (srcOf e) (dstOf e) (weightOf w)

/-- One propagation step: row v of the result is the sum over the edges e ending at v of norm(e) · h(src e). -/
def agg (h : T F S100000x64 .f32) (src dst : T F S1700000 .i32) (norm : T F S1700000 .f32) : T F S100000x64 .f32 :=
  Host.scatterAdd scatter_S100000x64_S1700000x1_S1700000x64_1_0_0_1
    (broadcastInDim S100000x64 ![] bcast_S_S100000x64 (constant S_ .f32 0x00000000#32)) (col dst)
    (mulf (broadcastInDim S1700000x64 ![0, 1] bcast_S1700000x1_S1700000x64_0_1 (col norm))
      (Host.gather gather_S100000x64_S1700000x1_S1700000x64_1_0_n_n_0_1_164 h (col (wrap src))))

/-- The leaky rectifier: x where x ≥ 0, 0.01 · x elsewhere (0.01 as the single-precision number nearest to it). -/
def leaky (x : T F S100000x64 .f32) : T F S100000x64 .f32 :=
  select (cmpf .oge x (broadcastInDim S100000x64 ![] bcast_S_S100000x64 (constant S_ .f32 0x00000000#32))) x
    (mulf (broadcastInDim S100000x64 ![] bcast_S_S100000x64 (id (constant S_ .f32 0x3C23D70A#32))) x)

/-- A bias of 64 entries laid along every row. -/
def bias64 (b : T F S64 .f32) : T F S100000x64 .f32 :=
  broadcastInDim S100000x64 ![0, 1] bcast_S1x64_S100000x64_0_1 (broadcastInDim S1x64 ![1] bcast_S64_S1x64_1 b)

/-- A bias of 40 entries laid along every row. -/
def bias40 (b : T F S40 .f32) : T F S100000x40 .f32 :=
  broadcastInDim S100000x40 ![0, 1] bcast_S1x40_S100000x40_0_1 (broadcastInDim S1x40 ![1] bcast_S40_S1x40_1 b)

/-- The first dense layer: leaky (x · w + b). -/
def dense0 (x : T F S100000x128 .f32) (w : T F S128x64 .f32) (b : T F S64 .f32) : T F S100000x64 .f32 :=
  leaky (addf (Host.dotGeneral dot_S100000x128_S128x64_S100000x64_1_0_0_1_n_n none x w) (bias64 b))

/-- A product with a square weight table. -/
def mm64 (h : T F S100000x64 .f32) (w : T F S64x64 .f32) : T F S100000x64 .f32 :=
  Host.dotGeneral dot_S100000x64_S64x64_S100000x64_1_0_0_1_n_n none h w

/-- A bias and the leaky rectifier. -/
def biasAct (a : T F S100000x64 .f32) (b : T F S64 .f32) : T F S100000x64 .f32 :=
  leaky (addf a (bias64 b))

/-- Every row shifted by its maximum: z = x − max x, the maximum taken from -∞ and once more against -∞. -/
def shift (x : T F S100000x40 .f32) : T F S100000x40 .f32 :=
  subf x (broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf x (constant S_ .f32 0xFF800000#32) reducesTo_S100000x40_S100000_d1 h_S_))))

/-- In every row, the logarithm of the softmax: z − log Σ exp z with z = x − max x. -/
def logSoftmax (x : T F S100000x40 .f32) : T F S100000x40 .f32 :=
  subf (shift x)
    (broadcastInDim S100000x40 ![0, 1] bcast_S100000x1_S100000x40_0_1 (Host.log (broadcastInDim S100000x1 ![0] bcast_S100000_S100000x1_0
      (Host.reduceAdd (Host.exp (shift x)) (constant S_ .f32 0x00000000#32) reducesTo_S100000x40_S100000_d1 h_S_))))

/-- The last dense layer and the logarithm of the softmax of its rows. -/
def dense5 (h : T F S100000x64 .f32) (w : T F S64x40 .f32) (b : T F S40 .f32) : T F S100000x40 .f32 :=
  logSoftmax (addf (Host.dotGeneral dot_S100000x64_S64x40_S100000x40_1_0_0_1_n_n none h w) (bias40 b))

/-- The whole network, from the eleven argument tables. -/
def out (x : T F S100000x128 .f32) (e : T F S2x1600000 .i32) (w : T F S1600000 .f32) (w0 : T F S128x64 .f32) (b0 : T F S64 .f32)
    (w1 : T F S64x64 .f32) (b1 : T F S64 .f32) (w2 : T F S64x64 .f32) (b2 : T F S64 .f32) (w3 : T F S64x40 .f32) (b3 : T F S40 .f32) :
    T F S100000x40 .f32 :=
  dense5
    (biasAct (agg (mm64
      (biasAct (agg (mm64 (dense0 x w0 b0) w1) (srcOf e) (dstOf e) (normOf e w)) b1)
      w2) (srcOf e) (dstOf e) (normOf e w)) b2)
    w3 b3

end Cert.Stages

end
-- ==== Proof.KernelRun.lean ====
/-
  The kernel program's run with its result named.

  Every weakly fair execution of the program (host operations, then six kernel regions among further host operations)
  terminates without a fault, leaves the eleven argument tables as launched, and leaves in the result table what the last
  boundary's contents hold there: the contents are carried from the launch through each stretch of host operations (the fold
  of their results) and through each region (its output table at what the grid points' write-backs leave, every other
  table untouched).
-/
import proofs.«161979_j73323681677856_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result table at the last boundary's contents, the arguments as launched. -/
theorem run_named : θ_run defs (onTc (τ := τ) (main (F := F))) ⟨m, fun _ => 0, ρ⟩ (fun r => ∀ c : Dev nD,
      r.2.mem ((c.tc : Thread nD τ).loc main_v67) = W12 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v67 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.ValueRun

end
-- ==== Proof.LibKeepdims.lean ====
/-
  Vectors as one-column and one-row tables, read at an entry, for tables of any size and any element type.

  A vector v of a entries becomes a one-column table either by a re-shaping (the vector unit's spelling) or by being
  placed along axis 0 of an a × 1 table (the array program's spelling): either way entry (p, 0) is v(p). A one-column
  table repeated over b columns has entry (p, q) equal to the column's entry p. A vector of n entries re-shaped to one
  row has entry (0, q) equal to the vector's entry q. These are the layouts a row-wise reduction kept as a column
  (a maximum or a sum along the rows, laid back along them) goes through.
-/
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector of a entries cast to one column: entry (p, 0) is the vector's entry p. -/
theorem col_cast_apply {a : Nat} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

/-- One column repeated over b columns: entry (p, q) is the column's entry p. -/
theorem col_bcast_apply {a b : Nat} (y : (⟨2, ![a, 1]⟩ : Shape).Idx → α) (h : (⟨2, ![a, 1]⟩ : Shape).Broadcasts ⟨2, ![a, b]⟩)
    (p : Fin a) (q : Fin b) : broadcastTo ⟨2, ![a, b]⟩ y h (ix2 p q) = y (ix2 p (0 : Fin 1)) := by
  refine broadcastTo_apply y h (ix2 p q) (ix2 p (0 : Fin 1)) ?_
  intro x
  match x with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A vector of m entries placed along axis 0 of a one-column table: entry (r, 0) is the vector's entry r. -/
theorem vec_col_apply {m : Nat} (h : (⟨1, ![m]⟩ : Shape).BroadcastsInDim ⟨2, ![m, 1]⟩ ![0])
    (v : (⟨1, ![m]⟩ : Shape).Idx → α) (r : Fin m) :
    broadcastInDim ⟨2, ![m, 1]⟩ ![0] h v (ix2 r (0 : Fin 1)) = v (ix1 r) := by
  refine broadcastInDim_apply ![0] h v (ix2 r (0 : Fin 1)) (ix1 r) ?_
  intro a
  match a with
  | ⟨0, _⟩ =>
    show r.val = if m = 1 then 0 else r.val
    split
    · have := r.isLt; omega
    · rfl

/-- A vector of n entries re-shaped to one row keeps its entries: entry (0, q) is the vector's entry q. -/
theorem row_cast_apply {n : Nat} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) := by
  refine shapeCast_apply x h (ix2 (0 : Fin 1) q) (ix1 q) ?_
  rw [Shape.rowMajor_val_two, Shape.rowMajor_val_one]
  show q.val = 0 * n + q.val
  omega

end Cert.LibKeepdims

end
-- ==== Proof.HostWin.lean ====
/-
  The host operations between the kernel regions, read as functions of whatever the buffers held before them.

  Every stretch of host operations writes each of its buffers once, so the contents after the stretch are the operations'
  composition applied to the contents before it. Cut where the shared values are born, the stretches say: the endpoint
  lists and the weights are the endpoint table's rows and the edge weights followed by the self loops' (srcOf, dstOf,
  weightOf); the scale table is scaleOf of the degrees of those; the coefficients are normFrom of the scale table, the
  endpoint lists and the weights; a propagation step is agg of the table, the endpoint lists and the coefficients; and a
  bias vector re-shaped to one row keeps its entries.
-/
import proofs.«161979_j73323681677856_1_alg».proof.Proof.Gen.KernelIdeal.Launch
import proofs.«161979_j73323681677856_1_alg».proof.Proof.Gen.ReferenceIdeal
import proofs.«161979_j73323681677856_1_alg».proof.Proof.Stages
import proofs.«161979_j73323681677856_1_alg».proof.Proof.LibKeepdims
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HostWin

open Idealize.ShloMosaic Idealize.ShloMosaic.TcCoe Idealize.ShloMosaic.ValueIdx Idealize.ShloMosaic.StableHlo Cert.KernelIdeal Cert.KernelIdeal.Gen

/-- Two lists laid end to end (E entries, then N). -/
def cat2 {α : Type} (a : S1600000.Idx → α) (b : S100000.Idx → α) : S1700000.Idx → α :=
  concatenate S1700000 0 [⟨S1600000, a⟩, ⟨S100000, b⟩] concatenates_S1600000_S100000_S1700000_d0

theorem cat_fold {α : Type} (a : S1600000.Idx → α) (b : S100000.Idx → α) (h : Shape.Concatenates [S1600000, S100000] S1700000 0) :
    concatenate S1700000 0 [⟨S1600000, a⟩, ⟨S100000, b⟩] h = cat2 a b := rfl

/-- A re-shaping reads its target shape off the buffer it writes; these are the shapes. -/
theorem rs_v2 {α : Type} (X : S1x1600000.Idx → α) (h : S1x1600000.ShapeCasts (main_v2 : Ref sig .tc).ty.shape) :
    shapeCast (main_v2 : Ref sig .tc).ty.shape X h = shapeCast S1600000 X h := rfl
theorem rs_v5 {α : Type} (X : S1x1600000.Idx → α) (h : S1x1600000.ShapeCasts (main_v5 : Ref sig .tc).ty.shape) :
    shapeCast (main_v5 : Ref sig .tc).ty.shape X h = shapeCast S1600000 X h := rfl
theorem rs_v32 {α : Type} (X : S64.Idx → α) (h : S64.ShapeCasts (main_v32 : Ref sig .tc).ty.shape) :
    shapeCast (main_v32 : Ref sig .tc).ty.shape X h = shapeCast S1x64 X h := rfl
theorem rs_v48 {α : Type} (X : S64.Idx → α) (h : S64.ShapeCasts (main_v48 : Ref sig .tc).ty.shape) :
    shapeCast (main_v48 : Ref sig .tc).ty.shape X h = shapeCast S1x64 X h := rfl
theorem rs_v64 {α : Type} (X : S64.Idx → α) (h : S64.ShapeCasts (main_v64 : Ref sig .tc).ty.shape) :
    shapeCast (main_v64 : Ref sig .tc).ty.shape X h = shapeCast S1x64 X h := rfl
theorem rs_v66 {α : Type} (X : S40.Idx → α) (h : S40.ShapeCasts (main_v66 : Ref sig .tc).ty.shape) :
    shapeCast (main_v66 : Ref sig .tc).ty.shape X h = shapeCast S1x40 X h := rfl

/-- The two programs' dimension records of the gathers and scatters are the same records. -/
theorem scat1_eq : Cert.KernelIdeal.scatter_S100000_S1700000x1_S1700000_n_0_0_1 = Cert.ReferenceIdeal.scatter_S100000_S1700000x1_S1700000_n_0_0_1 := rfl
theorem gath1_eq : Cert.KernelIdeal.gather_S100000_S1700000x1_S1700000_n_0_n_n_0_1_1 = Cert.ReferenceIdeal.gather_S100000_S1700000x1_S1700000_n_0_n_n_0_1_1 := rfl
theorem scat2_eq : Cert.KernelIdeal.scatter_S100000x64_S1700000x1_S1700000x64_1_0_0_1 = Cert.ReferenceIdeal.scatter_S100000x64_S1700000x1_S1700000x64_1_0_0_1 := rfl
theorem gath2_eq : Cert.KernelIdeal.gather_S100000x64_S1700000x1_S1700000x64_1_0_n_n_0_1_164 = Cert.ReferenceIdeal.gather_S100000x64_S1700000x1_S1700000x64_1_0_n_n_0_1_164 := rfl

/-- Reads the contents after a literal stretch at a literal buffer as the operations' composition over the contents before. -/
macro "host_read" : tactic => `(tactic| (simp only [hostOps0, hostOps0_1, hostOps0_2, hostOps2, hostOps4, hostOps5, List.cons_append, List.nil_append]; simp (disch := decide) only [after_cons, after_nil, cat_fold, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']))

/-- After a read: the identity casts of a called function's lines, the re-shapings' shapes, the two programs' records. -/
macro "host_tidy" : tactic => `(tactic| (try simp only [TRef.toBuf, TRef.ofBuf, cast_eq, id, rs_v2, rs_v5, rs_v32, rs_v48, rs_v64, rs_v66, scat1_eq, gath1_eq, scat2_eq, gath2_eq]))

variable (V : Valuation τ sig (Elt Ideal))

/-! ## The first stretch: the endpoint lists, the weights, and the degrees' positivity mask and reciprocal root -/

theorem A_v3 : after hostOps0 V (Proc.devRef .tc main_v3) = Cert.Stages.srcOf (V (Proc.devRef .tc main_arg1)) := by
  host_read; host_tidy; rfl
theorem A_v6 : after hostOps0 V (Proc.devRef .tc main_v6) = Cert.Stages.dstOf (V (Proc.devRef .tc main_arg1)) := by
  host_read; host_tidy; rfl
theorem A_v8 : after hostOps0 V (Proc.devRef .tc main_v8) = Cert.Stages.weightOf (V (Proc.devRef .tc main_arg2)) := by
  host_read; host_tidy; rfl
theorem A_v13 : after hostOps0 V (Proc.devRef .tc main_v13)
    = cmpf .ogt (Cert.Stages.degOf (Cert.Stages.dstOf (V (Proc.devRef .tc main_arg1))) (Cert.Stages.weightOf (V (Proc.devRef .tc main_arg2))))
        (broadcastInDim S100000 ![] bcast_S_S100000 (constant (F := Ideal) S_ .f32 0x00000000#32)) := by
  host_read; host_tidy; rfl
theorem A_v14 : after hostOps0 V (Proc.devRef .tc main_v14)
    = Host.rsqrt (Cert.Stages.degOf (Cert.Stages.dstOf (V (Proc.devRef .tc main_arg1))) (Cert.Stages.weightOf (V (Proc.devRef .tc main_arg2)))) := by
  host_read; host_tidy; rfl
theorem A_cst2 : after hostOps0 V (Proc.devRef .tc main_cst_2) = constant (F := Ideal) S_ .f32 0x00000000#32 := by
  host_read

/-! ## The second stretch: the scale table selected from what it finds -/

theorem B_v15 : after hostOps0_1 V (Proc.devRef .tc main_v15)
    = select (V (Proc.devRef .tc main_v13)) (V (Proc.devRef .tc main_v14))
        (broadcastInDim S100000 ![] bcast_S_S100000 (id (V (Proc.devRef .tc main_cst_2)))) := by
  host_read; host_tidy

/-! ## The coefficients, and the first bias as one row -/

theorem C_v31 : after hostOps0_2 V (Proc.devRef .tc main_v31)
    = Cert.Stages.normFrom (V (Proc.devRef .tc main_v15)) (V (Proc.devRef .tc main_v3)) (V (Proc.devRef .tc main_v6)) (V (Proc.devRef .tc main_v8)) := by
  host_read; host_tidy; rfl

theorem C_v32 (q : Fin 64) : after hostOps0_2 V (Proc.devRef .tc main_v32) (ix2 (0 : Fin 1) q) = V (Proc.devRef .tc main_arg4) (ix1 q) := by
  host_read; host_tidy; exact Cert.LibKeepdims.row_cast_apply _ _ q

/-! ## The two propagation steps, and their biases as one row -/

theorem H2_v47 : after hostOps2 V (Proc.devRef .tc main_v47)
    = Cert.Stages.agg (V (Proc.devRef .tc main_v34)) (V (Proc.devRef .tc main_v3)) (V (Proc.devRef .tc main_v6)) (V (Proc.devRef .tc main_v31)) := by
  host_read; host_tidy; rfl
theorem H2_v48 (q : Fin 64) : after hostOps2 V (Proc.devRef .tc main_v48) (ix2 (0 : Fin 1) q) = V (Proc.devRef .tc main_arg6) (ix1 q) := by
  host_read; host_tidy; exact Cert.LibKeepdims.row_cast_apply _ _ q

theorem H4_v63 : after hostOps4 V (Proc.devRef .tc main_v63)
    = Cert.Stages.agg (V (Proc.devRef .tc main_v50)) (V (Proc.devRef .tc main_v3)) (V (Proc.devRef .tc main_v6)) (V (Proc.devRef .tc main_v31)) := by
  host_read; host_tidy; rfl
theorem H4_v64 (q : Fin 64) : after hostOps4 V (Proc.devRef .tc main_v64) (ix2 (0 : Fin 1) q) = V (Proc.devRef .tc main_arg8) (ix1 q) := by
  host_read; host_tidy; exact Cert.LibKeepdims.row_cast_apply _ _ q

/-! ## The last bias as one row -/

theorem H5_v66 (q : Fin 40) : after hostOps5 V (Proc.devRef .tc main_v66) (ix2 (0 : Fin 1) q) = V (Proc.devRef .tc main_arg10) (ix1 q) := by
  host_read; host_tidy; exact Cert.LibKeepdims.row_cast_apply _ _ q

end Cert.KernelIdeal.HostWin

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.LibDenseRef.lean ====
/-
  One dense layer in the host's spelling, read at an entry.

  On the host a dense layer is a matrix product, a bias vector placed along the rows (first as a one-row table, then
  repeated down the rows) and, for a rectified layer, the maximum with a table of zeros made from a scalar zero.
  Entry (a, j) is  Σ_k x(a, k) · w(k, j) + b(j)  (and its maximum with 0): the same value as the vector unit's
  spelling of the layer (LibDense), whose bias is a one-row table. No finiteness is assumed.
-/
import Idealize.ShloMosaic.Lib.ValueIdx
import Idealize.ShloMosaic.Lib.ValueLayout
import Idealize.ShloMosaic.Lib.Pipeline.Value
import Idealize.ShloMosaic.PureOps.Ideal.Laws
import proofs.«161979_j73323681677856_1_alg».proof.Proof.LibDot

noncomputable section

open scoped BigOperators

namespace Cert.LibDenseRef

open Idealize.ShloMosaic Idealize.ShloMosaic.ValueIdx

/-- A scalar repeated over a whole table: every entry is the scalar. -/
theorem scalar_apply {α : Type} {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

/-- The linear part of the layer at entry (a, j). -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1]) (a : Fin m) (j : Fin p) :
    addf (Host.dotGeneral d none x w) (broadcastInDim ⟨2, ![m, p]⟩ ![0, 1] hbc (broadcastInDim ⟨2, ![1, p]⟩ ![1] hd b)) (ix2 a j)
      = (∑ k : Fin n, x (ix2 a k) * w (ix2 k j)) + b (ix1 j) := by
  rw [addf_apply, Cert.Sage.LibDot.row_dims_apply b hd hbc a j]
  congr 1
  simp only [Host.dotGeneral]
  rw [Ideal.dotGeneral_apply]
  exact Cert.Sage.LibDot.sum_plain d hr hs hl0 hl1 hr0 hr1 (fun i => x i) (fun i => w i) a j

/-- The rectified layer at entry (a, j). -/
theorem relu_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1])
    (hz : (⟨0, ![]⟩ : Shape).BroadcastsInDim ⟨2, ![m, p]⟩ ![]) (a : Fin m) (j : Fin p) :
    maximumf (addf (Host.dotGeneral d none x w) (broadcastInDim ⟨2, ![m, p]⟩ ![0, 1] hbc (broadcastInDim ⟨2, ![1, p]⟩ ![1] hd b)))
        (broadcastInDim ⟨2, ![m, p]⟩ ![] hz (constant (F := Ideal) ⟨0, ![]⟩ .f32 0x00000000#32)) (ix2 a j)
      = max ((∑ k : Fin n, x (ix2 a k) * w (ix2 k j)) + b (ix1 j)) 0 := by
  refine (maximumf_apply _ _ (ix2 a j)).trans ?_
  refine congrArg₂ max (lin_apply d hr hs hl0 hl1 hr0 hr1 x w b hd hbc a j) ?_
  rw [scalar_apply]
  exact Ideal.ofBits_zero_f32

end Cert.LibDenseRef

end
-- ==== Proof.StageReads.lean ====
/-
  The stages read at an entry.

  The leaky rectifier acts entry by entry: with lk(h) = h where h ≥ 0 and 0.01 · h elsewhere (0.01 as the single-precision
  number nearest to it), entry i of the rectified table is lk of entry i. So entry (r, q) of "bias, then rectifier" is
  lk (a(r, q) + b(q)), and entry (r, q) of the first dense layer is lk (Σ_k x(r, k) · w(k, q) + b(q)), the sum over the
  128 shared positions. No finiteness is used.
-/
import proofs.«161979_j73323681677856_1_alg».proof.Proof.Gen.ReferenceIdeal
import proofs.«161979_j73323681677856_1_alg».proof.Proof.Stages
import proofs.«161979_j73323681677856_1_alg».proof.Proof.LibDenseRef
import Idealize.ShloMosaic.Lib.ValueIdx

noncomputable section

open scoped BigOperators

namespace Cert.Stages

open Idealize.ShloMosaic Idealize.ShloMosaic.ValueIdx Cert.ReferenceIdeal Cert.ReferenceIdeal.Facts₀ Cert.ReferenceIdeal.Facts

/-- The leaky rectifier on one extended real. -/
def lk (h : Ideal .f32) : Ideal .f32 :=
  Scalar.select (FloatOps.cmpf (F := Ideal) .oge h (Ideal.ofBits .f32 0x00000000#32)) h (Ideal.ofBits .f32 0x3C23D70A#32 * h)

/-- The rectified table, entry by entry. -/
theorem leaky_apply (x : T Ideal S100000x64 .f32) (i : S100000x64.Idx) : leaky x i = lk (x i) := by
  unfold leaky lk
  rw [select_apply, cmpf_apply, mulf_apply, Cert.LibDenseRef.scalar_apply, Cert.LibDenseRef.scalar_apply]
  rfl

/-- Bias, then rectifier, at entry (r, q). -/
theorem biasAct_apply (a : T Ideal S100000x64 .f32) (b : T Ideal S64 .f32) (r : Fin 100000) (q : Fin 64) :
    biasAct a b (ix2 r q) = lk (a (ix2 r q) + b (ix1 q)) := by
  unfold biasAct bias64
  rw [leaky_apply, addf_apply, Cert.Sage.LibDot.row_dims_apply b bcast_S64_S1x64_1 bcast_S1x64_S100000x64_0_1 r q]

/-- The first dense layer at entry (r, q). -/
theorem dense0_apply (x : T Ideal S100000x128 .f32) (w : T Ideal S128x64 .f32) (b : T Ideal S64 .f32) (r : Fin 100000) (q : Fin 64) :
    dense0 x w b (ix2 r q) = lk ((∑ k : Fin 128, x (ix2 r k) * w (ix2 k q)) + b (ix1 q)) := by
  unfold dense0 bias64
  rw [leaky_apply]
  exact congrArg lk (Cert.LibDenseRef.lin_apply dot_S100000x128_S128x64_S100000x64_1_0_0_1_n_n rfl rfl (fun _ _ => rfl) (fun _ _ => rfl)
    (fun _ _ => rfl) (fun _ _ => rfl) x w b bcast_S64_S1x64_1 bcast_S1x64_S100000x64_0_1 r q)

end Cert.Stages

end
-- ==== Proof.LibDense.lean ====
/-
  One dense layer read at an entry.

  A dense layer sends a table x of m rows and n columns to  relu (x · w + b):  entry (a, j) of the result is
  max (Σ_k x(a, k) · w(k, j) + b(j)) 0,  the sum over the n columns of x (rows of w). Here the layer is spelt the way
  a vector unit computes one block of rows: both operands pass through a change of float format (the identity on
  the extended reals) and an identity re-shaping, the product accumulates into a zero table, the bias is a one-row
  table repeated down the rows, and the rectifier is the maximum with a table of zeros. The same value holds with
  no rectifier (lin_apply). No finiteness is assumed: only that zero is neutral for + and that the dimension
  record's contraction runs over the n positions of the shared axis.
-/
import Idealize.ShloMosaic.Lib.ValueIdx
import Idealize.ShloMosaic.Lib.ValueLayout
import Idealize.ShloMosaic.Lib.Pipeline.Value
import Idealize.ShloMosaic.PureOps.Ideal.Laws
import proofs.«161979_j73323681677856_1_alg».proof.Proof.LibDot

noncomputable section

open scoped BigOperators

namespace Cert.LibDense

open Idealize.ShloMosaic Idealize.ShloMosaic.ValueIdx

/-- A one-row table repeated down m rows: entry (a, j) is the row's entry j. -/
theorem row_apply {α : Type} {m p : Nat} (b : (⟨2, ![1, p]⟩ : Shape).Idx → α)
    (hb : (⟨2, ![1, p]⟩ : Shape).Broadcasts ⟨2, ![m, p]⟩) (a : Fin m) (j : Fin p) :
    broadcastTo ⟨2, ![m, p]⟩ b hb (ix2 a j) = b (ix2 (0 : Fin 1) j) := by
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- A one-row table repeated down m rows (after an identity re-shaping): entry (a, j) is the row's entry j. -/
theorem bias_apply {m p : Nat} (b : (⟨2, ![1, p]⟩ : Shape).Idx → EReal)
    (hc : (⟨2, ![1, p]⟩ : Shape).ShapeCasts ⟨2, ![1, p]⟩) (hb : (⟨2, ![1, p]⟩ : Shape).Broadcasts ⟨2, ![m, p]⟩)
    (a : Fin m) (j : Fin p) :
    broadcastTo ⟨2, ![m, p]⟩ (shapeCast ⟨2, ![1, p]⟩ b hc) hb (ix2 a j) = b (ix2 (0 : Fin 1) j) := by
  rw [shapeCast_self]
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- The linear part  x · w + b  of the layer at entry (a, j), the operands as they are. -/
theorem lin_core {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 x hbits) (truncf .bf16 w hbits) (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [addf_apply, bias_apply b hc hb a j]
  congr 1
  refine (Ideal.matmul_constant_zero_apply d none _ _ (ix2 a j)).trans ?_
  exact Cert.Sage.LibDot.sum_plain d hr hs hl0 hl1 hr0 hr1 (fun i => x i) (fun i => w i) a j

/-- The same with both operands passed through an identity re-shaping first. -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩) (hw : (⟨2, ![n, p]⟩ : Shape).ShapeCasts ⟨2, ![n, p]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 (shapeCast ⟨2, ![n, p]⟩ w hw) hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self, shapeCast_self]
  exact lin_core d hr hs hl0 hl1 hr0 hr1 x w b hc hb hbits a j

/-- The same with only the left operand passed through an identity re-shaping. -/
theorem lin_apply_x {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 w hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self]
  exact lin_core d hr hs hl0 hl1 hr0 hr1 x w b hc hb hbits a j

end Cert.LibDense

end
-- ==== Proof.Region0.lean ====
/-
  The first kernel region: the first dense layer, 4000 rows at a time.

  Point t of the 25 grid points reads rows 4000 t … 4000 t + 3999 of the 100000 × 128 input table, the whole 128 × 64
  weight table and the one-row bias table, and writes the same rows of the result: entry (p, q) of what it writes is
  lk (Σ_k x(4000 t + p, k) · w(k, q) + b(q)), the sum over the 128 shared positions accumulated into zero and lk the leaky
  rectifier on one number. That is entry (4000 t + p, q) of the whole layer, and the 25 row blocks tile the result. The
  bias reaches the region as a one-row table holding the bias vector's entries. No finiteness is used.
-/
import proofs.«161979_j73323681677856_1_alg».proof.Proof.Gen.KernelIdeal.Frame
import proofs.«161979_j73323681677856_1_alg».proof.Proof.Gen.ReferenceIdeal
import proofs.«161979_j73323681677856_1_alg».proof.Proof.Stages
import proofs.«161979_j73323681677856_1_alg».proof.Proof.StageReads
import proofs.«161979_j73323681677856_1_alg».proof.Proof.LibDense
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- Entry (p, q) of one block's result: the rectifier of the contraction plus the bias of the column. -/
theorem pay_apply (x0 : FVec Ideal S4000x128 .f32) (x1 : FVec Ideal S128x64 .f32) (x2 : FVec Ideal S1x64 .f32) (p : Fin 4000) (q : Fin 64) :
    k0_pay1 (F := Ideal) x0 x1 x2 (ix2 p q)
      = Cert.Stages.lk ((∑ k : Fin 128, x0 (ix2 p k) * x1 (ix2 k q)) + x2 (ix2 (0 : Fin 1) q)) := by
  unfold k0_pay1
  show Cert.Stages.lk (addf (matmul dot_S4000x128_S128x64_S4000x64_1_0_0_1_n_n none (truncf .bf16 x0 bitsLt_bf16_f32)
      (truncf .bf16 x1 bitsLt_bf16_f32) (constant (F := Ideal) S4000x64 .f32 0x00000000#32))
    (broadcastTo S4000x64 (shapeCast S1x64 x2 shapeCasts_S1x64_S1x64) broadcasts_S1x64_S4000x64) (ix2 p q)) = _
  exact congrArg Cert.Stages.lk (Cert.LibDense.lin_core dot_S4000x128_S128x64_S4000x64_1_0_0_1_n_n rfl rfl (fun _ _ => rfl)
    (fun _ _ => rfl) (fun _ _ => rfl) (fun _ _ => rfl) x0 x1 x2 shapeCasts_S1x64_S1x64 broadcasts_S1x64_S4000x64 bitsLt_bf16_f32 p q)

theorem hz : (![0, 0] : Fin 2 → Nat) = fun _ => 0 := funext fun a => by fin_cases a <;> rfl

/-- The block numbers at point t: the input table and the result move down with t, the weights and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of the input table is row 4000 t + p of the table. -/
theorem read0 (c : Dev nD) (t : Fin cfg0.N) (p : Fin 4000) (k : Fin 128) (r : Fin 100000) (hr : r.val = 4000 * t.val + p.val) :
    iblk0 V c 0 t (ix2 p k) = V c main_arg0 (ix2 r k) := by
  show V c main_arg0 (((cfg0.win 0).blk t).view.emb (ix2 p k)) = V c main_arg0 (ix2 r k)
  obtain ⟨e0, e1, -⟩ := idx_facts t
  refine congrArg _ (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- Every point's block of the weight table is the whole table. -/
theorem read1 (c : Dev nD) (t : Fin cfg0.N) (k : Fin 128) (q : Fin 64) :
    iblk0 V c 1 t (ix2 k q) = V c main_arg3 (ix2 k q) := by
  show V c main_arg3 (((cfg0.win 1).blk t).view.emb (ix2 k q)) = V c main_arg3 (ix2 k q)
  obtain ⟨-, -, e2, e3, -⟩ := idx_facts t
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- Every point's block of the bias row is the whole row. -/
theorem read2 (c : Dev nD) (t : Fin cfg0.N) (q : Fin 64) :
    iblk0 V c 2 t (ix2 (0 : Fin 1) q) = V c main_v32 (ix2 (0 : Fin 1) q) := by
  show V c main_v32 (((cfg0.win 2).blk t).view.emb (ix2 (0 : Fin 1) q)) = V c main_v32 (ix2 (0 : Fin 1) q)
  obtain ⟨-, -, -, -, e4, e5, -⟩ := idx_facts t
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- What point t writes back is its block of the whole first layer. -/
theorem flushed_eq (b : Cert.Stages.T Ideal Cert.ReferenceIdeal.S64 .f32) (c : Dev nD)
    (hb : ∀ q : Fin 64, V c main_v32 (ix2 (0 : Fin 1) q) = b (ix1 q)) (t : Fin cfg0.N) :
    (dat0 V c).flushed 3 t = ((cfg0.win 3).blk t).view.read (Elt Ideal) (Cert.Stages.dense0 (V c main_arg0) (V c main_arg3) b) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x64) hz, View.ld_unit_zero (S := S1x64) hz]
  funext j
  obtain ⟨p, q, rfl⟩ : ∃ (p : Fin 4000) (q : Fin 64), j = ix2 p q := ⟨j 0, j 1, eq_ix2 j⟩
  have ht : t.val < 25 := t.isLt
  obtain ⟨-, -, -, -, -, -, e6, e7⟩ := idx_facts t
  have hemb : ((cfg0.win 3).blk t).view.emb (ix2 p q) = ix2 (⟨4000 * t.val + p.val, by omega⟩ : Fin 100000) q :=
    funext fun a => Fin.ext (by
      match a with
      | ⟨0, _⟩ => show win0_3.index t (0 : Fin 2) * 4000 + 1 * p.val = 4000 * t.val + p.val; omega
      | ⟨1, _⟩ => show win0_3.index t (1 : Fin 2) * 64 + 1 * q.val = q.val; omega)
  show k0_pay1 (iblk0 V c 0 t) (iblk0 V c 1 t) (iblk0 V c 2 t) (ix2 p q)
    = Cert.Stages.dense0 (V c main_arg0) (V c main_arg3) b (((cfg0.win 3).blk t).view.emb (ix2 p q))
  rw [hemb]
  refine (pay_apply (iblk0 V c 0 t) (iblk0 V c 1 t) (iblk0 V c 2 t) p q).trans ?_
  rw [Cert.Stages.dense0_apply, read2 V c t q, hb q]
  refine congrArg (fun s => Cert.Stages.lk (s + b (ix1 q))) ?_
  refine Finset.sum_congr rfl fun k _ => ?_
  rw [read0 V c t p k ⟨4000 * t.val + p.val, by omega⟩ rfl, read1 V c t k q]

/-- An index of the result is in point t's block iff each coordinate is in the block's range on its axis. -/
theorem mem_blk (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v33).slice (win0_3.rect t)).set ↔ _
  rw [View.set_slice_whole, Rect.mem_set_unit]
  exact Iff.rfl

/-- The 25 row blocks tile the result: row r is in block r / 4000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 4000 := ⟨⟨(i 0).val / 4000, by show _ < 25; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- After the region the result table is the first dense layer of the tables the region found. -/
theorem final (b : Cert.Stages.T Ideal Cert.ReferenceIdeal.S64 .f32) (c : Dev nD)
    (hb : ∀ q : Fin 64, V c main_v32 (ix2 (0 : Fin 1) q) = b (ix1 q)) :
    (dat0 V c).arrAt 3 cfg0.N = Cert.Stages.dense0 (V c main_arg0) (V c main_arg3) b :=
  (dat0 V c).arrAt_eq_of_cover 3 _ (fun t _ => flushed_eq V b c hb t) cover

end Cert.KernelIdeal.Region0

end
-- ==== Proof.LibHostReads.lean ====
/-
  Host operations read at an index, for tables of any size, at the ideal values.

  Laying out: a vector of n entries placed along axis 1 of a one-row table reads, at (u, j), its entry j; a one-column
  table repeated along n columns reads, at (r, t), the column's entry r.

  A plain product: the host's product of an m × n table with an n × p table, whose dimension record has one contracted
  axis of extent n, rows free on the left and columns free on the right (the record's coordinate facts, bundled as
  `PlainDot`), reads at (a, b) the sum over k of l(a, k) · r(k, b). No finiteness is assumed.
-/
import proofs.«161979_j73323681677856_1_alg».proof.Proof.LibDot
import Idealize.ShloMosaic.Lib.IdealHost

noncomputable section

open scoped BigOperators

namespace Cert.LibHostReads

open Idealize.ShloMosaic Idealize.ShloMosaic.ValueIdx

section Reads
variable {α : Type}

/-- A vector of n entries laid along axis 1 of a one-row table reads, at (u, j), its entry j. -/
theorem bcast_row_apply {n : Nat} (hd : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] hd x (ix2 u j) = x (ix1 j) := by
  refine broadcastInDim_apply ![1] hd x (ix2 u j) (ix1 j) ?_
  intro a
  match a with
  | ⟨0, _⟩ =>
    show j.val = if n = 1 then 0 else j.val
    split
    · have := j.isLt; omega
    · rfl

/-- A one-column table repeated along n columns reads, at (r, t), the column's entry r. -/
theorem bcast_col_apply {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else t.val
    rw [if_pos rfl]

end Reads

/-- The coordinate facts of a plain [m, n] × [n, p] product's record: one contracted axis of extent n, the left index
    at output (a, b) and position q being (a, q), the right index (q, b). -/
structure PlainDot {m n p : Nat} (d : DotDims ⟨2, ![m, n]⟩ ⟨2, ![n, p]⟩ ⟨2, ![m, p]⟩) : Prop where
  rank : d.contr.rank = 1
  size : d.contr.size ⟨0, by omega⟩ = n
  l0 : ∀ (i : (⟨2, ![m, p]⟩ : Shape).Idx) (q : d.contr.Idx), (d.lhsIdx i q 0).val = (i 0).val
  l1 : ∀ (i : (⟨2, ![m, p]⟩ : Shape).Idx) (q : d.contr.Idx), (d.lhsIdx i q 1).val = (q ⟨0, by omega⟩).val
  r0 : ∀ (i : (⟨2, ![m, p]⟩ : Shape).Idx) (q : d.contr.Idx), (d.rhsIdx i q 0).val = (q ⟨0, by omega⟩).val
  r1 : ∀ (i : (⟨2, ![m, p]⟩ : Shape).Idx) (q : d.contr.Idx), (d.rhsIdx i q 1).val = (i 1).val

/-- A plain product on the host read at (a, b): the sum over the shared coordinate. -/
theorem dot_apply {m n p : Nat} {d : DotDims ⟨2, ![m, n]⟩ ⟨2, ![n, p]⟩ ⟨2, ![m, p]⟩} (hd : PlainDot d)
    (l : (⟨2, ![m, n]⟩ : Shape).Idx → EReal) (r : (⟨2, ![n, p]⟩ : Shape).Idx → EReal) (a : Fin m) (b : Fin p) :
    Host.dotGeneral (F := Ideal) (φ₁ := .f32) (φ₂ := .f32) d none l r (ix2 a b) = ∑ k : Fin n, l (ix2 a k) * r (ix2 k b) :=
  (Ideal.dotGeneral_apply d none _ l r (ix2 a b)).trans
    (Cert.Sage.LibDot.sum_plain d hd.rank hd.size hd.l0 hd.l1 hd.r0 hd.r1 l r a b)

end Cert.LibHostReads

end
-- ==== Proof.Region1.lean ====
/-
  The second kernel region: a table h of 100000 rows and 64 columns times a 64 × 64 weight table, computed 4000 rows at a
  time.

  Point t of the 25 grid points reads rows 4000 t … 4000 t + 3999 of h and the whole weight table, and writes rows
  4000 t … 4000 t + 3999 of the result. Entry (p, q) of what it writes is the product accumulated into zero,
  Σ_k h(4000 t + p, k) · w(k, q) over the 64 shared positions, which is entry (4000 t + p, q) of the whole product. The
  25 row blocks tile the result, so after the last point the result table IS the whole product. No finiteness is used:
  zero is neutral for + on the extended reals and a change of float format is the identity.
-/
import proofs.«161979_j73323681677856_1_alg».proof.Proof.Gen.KernelIdeal.Frame
import proofs.«161979_j73323681677856_1_alg».proof.Proof.Gen.ReferenceIdeal
import proofs.«161979_j73323681677856_1_alg».proof.Proof.Stages
import proofs.«161979_j73323681677856_1_alg».proof.Proof.LibHostReads
import Idealize.ShloMosaic.Lib.Pipeline.Value
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- Entry (p, q) of one block's product: the contraction over the 64 shared positions. -/
theorem pay_apply (x0 : FVec Ideal S4000x64 .f32) (x1 : FVec Ideal S64x64 .f32) (p : Fin 4000) (q : Fin 64) :
    k1_pay1 (F := Ideal) x0 x1 (ix2 p q) = ∑ k : Fin 64, x0 (ix2 p k) * x1 (ix2 k q) := by
  unfold k1_pay1
  rw [shapeCast_self]
  refine (Ideal.matmul_constant_zero_apply dot_S4000x64_S64x64_S4000x64_1_0_0_1_n_n none _ _ (ix2 p q)).trans ?_
  exact Cert.Sage.LibDot.sum_plain dot_S4000x64_S64x64_S4000x64_1_0_0_1_n_n rfl rfl (fun _ _ => rfl) (fun _ _ => rfl)
    (fun _ _ => rfl) (fun _ _ => rfl) (fun i => x0 i) (fun i => x1 i) p q

/-- Entry (r, q) of the whole product. -/
theorem mm64_apply (h : Cert.Stages.T Ideal Cert.ReferenceIdeal.S100000x64 .f32) (w : Cert.Stages.T Ideal Cert.ReferenceIdeal.S64x64 .f32)
    (r : Fin 100000) (q : Fin 64) :
    Cert.Stages.mm64 h w (ix2 r q) = ∑ k : Fin 64, h (ix2 r k) * w (ix2 k q) := by
  unfold Cert.Stages.mm64
  exact Cert.LibHostReads.dot_apply ⟨rfl, rfl, fun _ _ => rfl, fun _ _ => rfl, fun _ _ => rfl, fun _ _ => rfl⟩ h w r q

theorem hz : (![0, 0] : Fin 2 → Nat) = fun _ => 0 := funext fun a => by fin_cases a <;> rfl

/-- The block numbers at point t: the row operand and the result move down with t, the weight table stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's block of the row operand is row 4000 t + p of the table. -/
theorem read0 (c : Dev nD) (t : Fin cfg1.N) (p : Fin 4000) (k : Fin 64) (r : Fin 100000) (hr : r.val = 4000 * t.val + p.val) :
    iblk1 V c 0 t (ix2 p k) = V c main_v33 (ix2 r k) := by
  show V c main_v33 (((cfg1.win 0).blk t).view.emb (ix2 p k)) = V c main_v33 (ix2 r k)
  obtain ⟨e0, e1, -⟩ := idx_facts t
  refine congrArg _ (funext fun a => Fin.ext ?_)
  match a with
  | ⟨0, _⟩ => show win1_0.index t (0 : Fin 2) * 4000 + 1 * p.val = r.val; omega
  | ⟨1, _⟩ => show win1_0.index t (1 : Fin 2) * 64 + 1 * k.val = k.val; omega

/-- Every point's block of the weight table is the whole table. -/
theorem read1 (c : Dev nD) (t : Fin cfg1.N) (k : Fin 64) (q : Fin 64) :
    iblk1 V c 1 t (ix2 k q) = V c main_arg5 (ix2 k q) := by
  show V c main_arg5 (((cfg1.win 1).blk t).view.emb (ix2 k q)) = V c main_arg5 (ix2 k q)
  obtain ⟨-, -, e2, e3, -⟩ := idx_facts t
  refine congrArg _ (funext fun a => Fin.ext ?_)
  match a with
  | ⟨0, _⟩ => show win1_1.index t (0 : Fin 2) * 64 + 1 * k.val = k.val; omega
  | ⟨1, _⟩ => show win1_1.index t (1 : Fin 2) * 64 + 1 * q.val = q.val; omega

/-- What point t writes back is its block of the whole product. -/
theorem flushed_eq (c : Dev nD) (t : Fin cfg1.N) :
    (dat1 V c).flushed 2 t = ((cfg1.win 2).blk t).view.read (Elt Ideal) (Cert.Stages.mm64 (V c main_v33) (V c main_arg5)) := by
  show (cfg1.win 2).cut (grid1.coords t) ((dat1 V c).after 2 t) = _
  rw [after1_2]
  unfold out1_2
  rw [View.canon_unit_zero hz]
  simp only [View.ld_unit_zero (S := S4000x64) hz, View.ld_unit_zero (S := S64x64) hz]
  funext j
  obtain ⟨p, q, rfl⟩ : ∃ (p : Fin 4000) (q : Fin 64), j = ix2 p q := ⟨j 0, j 1, eq_ix2 j⟩
  have ht : t.val < 25 := t.isLt
  obtain ⟨-, -, -, -, e4, e5⟩ := idx_facts t
  have hemb : ((cfg1.win 2).blk t).view.emb (ix2 p q) = ix2 (⟨4000 * t.val + p.val, by omega⟩ : Fin 100000) q :=
    funext fun a => Fin.ext (by
      match a with
      | ⟨0, _⟩ => show win1_2.index t (0 : Fin 2) * 4000 + 1 * p.val = 4000 * t.val + p.val; omega
      | ⟨1, _⟩ => show win1_2.index t (1 : Fin 2) * 64 + 1 * q.val = q.val; omega)
  show k1_pay1 (iblk1 V c 0 t) (iblk1 V c 1 t) (ix2 p q)
    = Cert.Stages.mm64 (V c main_v33) (V c main_arg5) (((cfg1.win 2).blk t).view.emb (ix2 p q))
  rw [hemb]
  refine (pay_apply (iblk1 V c 0 t) (iblk1 V c 1 t) p q).trans ?_
  refine Eq.trans ?_ (mm64_apply (V c main_v33) (V c main_arg5) _ q).symm
  refine Finset.sum_congr rfl fun k _ => ?_
  rw [read0 V c t p k ⟨4000 * t.val + p.val, by omega⟩ rfl, read1 V c t k q]

/-- An index of the result is in point t's block iff each coordinate is in the block's range on its axis. -/
theorem mem_blk (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v34).slice (win1_2.rect t)).set ↔ _
  rw [View.set_slice_whole, Rect.mem_set_unit]
  exact Iff.rfl

/-- The 25 row blocks tile the result: row r is in block r / 4000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 4000 := ⟨⟨(i 0).val / 4000, by show _ < 25; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 64 ≤ (i 1).val ∧ (i 1).val < win1_2.index t (1 : Fin 2) * 64 + 64; omega

/-- After the region the result table is the whole product of the tables the region found. -/
theorem final (c : Dev nD) : (dat1 V c).arrAt 2 cfg1.N = Cert.Stages.mm64 (V c main_v33) (V c main_arg5) :=
  (dat1 V c).arrAt_eq_of_cover 2 _ (fun t _ => flushed_eq V c t) cover

end Cert.KernelIdeal.Region1

end
-- ==== Proof.Region2.lean ====
/-
  The third kernel region: a bias added to every row of a table of 100000 rows and 64 columns, then the leaky rectifier,
  4000 rows at a time.

  Point t of the 25 grid points reads rows 4000 t … 4000 t + 3999 of the table and the one-row bias table, and writes the
  same rows of the result: entry (p, q) of what it writes is lk (a(4000 t + p, q) + b(q)), with lk the leaky rectifier on
  one number. The 25 row blocks tile the result, so after the last point the result table is "bias, then rectifier" of
  the whole table. The bias reaches the region as a one-row table holding the bias vector's entries.
-/
import proofs.«161979_j73323681677856_1_alg».proof.Proof.Gen.KernelIdeal.Frame
import proofs.«161979_j73323681677856_1_alg».proof.Proof.Gen.ReferenceIdeal
import proofs.«161979_j73323681677856_1_alg».proof.Proof.Stages
import proofs.«161979_j73323681677856_1_alg».proof.Proof.StageReads
import proofs.«161979_j73323681677856_1_alg».proof.Proof.LibDense
import Idealize.ShloMosaic.Lib.Pipeline.Value

set_option maxRecDepth 16384

noncomputable section

open scoped BigOperators

namespace Cert.KernelIdeal.Region2

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- Entry (p, q) of one block's result: the rectifier of the entry plus the bias of its column. -/
theorem pay_apply (x0 : FVec Ideal S4000x64 .f32) (x1 : FVec Ideal S1x64 .f32) (p : Fin 4000) (q : Fin 64) :
    k2_pay1 (F := Ideal) x0 x1 (ix2 p q) = Cert.Stages.lk (x0 (ix2 p q) + x1 (ix2 (0 : Fin 1) q)) := by
  unfold k2_pay1
  show Cert.Stages.lk (addf (shapeCast S4000x64 x0 shapeCasts_S4000x64_S4000x64)
    (broadcastTo S4000x64 (shapeCast S1x64 x1 shapeCasts_S1x64_S1x64) broadcasts_S1x64_S4000x64) (ix2 p q)) = _
  rw [addf_apply, shapeCast_self, Cert.LibDense.bias_apply]

theorem hz : (![0, 0] : Fin 2 → Nat) = fun _ => 0 := funext fun a => by fin_cases a <;> rfl

/-- The block numbers at point t: the table and the result move down with t, the bias row stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of point t's block of the table is row 4000 t + p of the table. -/
theorem read0 (c : Dev nD) (t : Fin cfg2.N) (p : Fin 4000) (k : Fin 64) (r : Fin 100000) (hr : r.val = 4000 * t.val + p.val) :
    iblk2 V c 0 t (ix2 p k) = V c main_v47 (ix2 r k) := by
  show V c main_v47 (((cfg2.win 0).blk t).view.emb (ix2 p k)) = V c main_v47 (ix2 r k)
  obtain ⟨e0, e1, -⟩ := idx_facts t
  refine congrArg _ (funext fun a => Fin.ext ?_)
  match a with
  | ⟨0, _⟩ => show win2_0.index t (0 : Fin 2) * 4000 + 1 * p.val = r.val; omega
  | ⟨1, _⟩ => show win2_0.index t (1 : Fin 2) * 64 + 1 * k.val = k.val; omega

/-- Every point's block of the bias row is the whole row. -/
theorem read1 (c : Dev nD) (t : Fin cfg2.N) (q : Fin 64) :
    iblk2 V c 1 t (ix2 (0 : Fin 1) q) = V c main_v48 (ix2 (0 : Fin 1) q) := by
  show V c main_v48 (((cfg2.win 1).blk t).view.emb (ix2 (0 : Fin 1) q)) = V c main_v48 (ix2 (0 : Fin 1) q)
  obtain ⟨-, -, e2, e3, -⟩ := idx_facts t
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * q.val = q.val; omega

/-- What point t writes back is its block of "bias, then rectifier" of the whole table. -/
theorem flushed_eq (b : Cert.Stages.T Ideal Cert.ReferenceIdeal.S64 .f32) (c : Dev nD)
    (hb : ∀ q : Fin 64, V c main_v48 (ix2 (0 : Fin 1) q) = b (ix1 q)) (t : Fin cfg2.N) :
    (dat2 V c).flushed 2 t = ((cfg2.win 2).blk t).view.read (Elt Ideal) (Cert.Stages.biasAct (V c main_v47) b) := by
  show (cfg2.win 2).cut (grid2.coords t) ((dat2 V c).after 2 t) = _
  rw [after2_2]
  unfold out2_2
  rw [View.canon_unit_zero hz]
  simp only [View.ld_unit_zero (S := S4000x64) hz, View.ld_unit_zero (S := S1x64) hz]
  funext j
  obtain ⟨p, q, rfl⟩ : ∃ (p : Fin 4000) (q : Fin 64), j = ix2 p q := ⟨j 0, j 1, eq_ix2 j⟩
  have ht : t.val < 25 := t.isLt
  obtain ⟨-, -, -, -, e4, e5⟩ := idx_facts t
  have hemb : ((cfg2.win 2).blk t).view.emb (ix2 p q) = ix2 (⟨4000 * t.val + p.val, by omega⟩ : Fin 100000) q :=
    funext fun a => Fin.ext (by
      match a with
      | ⟨0, _⟩ => show win2_2.index t (0 : Fin 2) * 4000 + 1 * p.val = 4000 * t.val + p.val; omega
      | ⟨1, _⟩ => show win2_2.index t (1 : Fin 2) * 64 + 1 * q.val = q.val; omega)
  show k2_pay1 (iblk2 V c 0 t) (iblk2 V c 1 t) (ix2 p q)
    = Cert.Stages.biasAct (V c main_v47) b (((cfg2.win 2).blk t).view.emb (ix2 p q))
  rw [hemb]
  refine (pay_apply (iblk2 V c 0 t) (iblk2 V c 1 t) p q).trans ?_
  rw [Cert.Stages.biasAct_apply, read0 V c t p q ⟨4000 * t.val + p.val, by omega⟩ rfl, read1 V c t q, hb q]

/-- An index of the result is in point t's block iff each coordinate is in the block's range on its axis. -/
theorem mem_blk (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v49).slice (win2_2.rect t)).set ↔ _
  rw [View.set_slice_whole, Rect.mem_set_unit]
  exact Iff.rfl

/-- The 25 row blocks tile the result: row r is in block r / 4000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 4000 := ⟨⟨(i 0).val / 4000, by show _ < 25; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 64 ≤ (i 1).val ∧ (i 1).val < win2_2.index t (1 : Fin 2) * 64 + 64; omega

/-- After the region the result table is "bias, then rectifier" of the table the region found. -/
theorem final (b : Cert.Stages.T Ideal Cert.ReferenceIdeal.S64 .f32) (c : Dev nD)
    (hb : ∀ q : Fin 64, V c main_v48 (ix2 (0 : Fin 1) q) = b (ix1 q)) :
    (dat2 V c).arrAt 2 cfg2.N = Cert.Stages.biasAct (V c main_v47) b :=
  (dat2 V c).arrAt_eq_of_cover 2 _ (fun t _ => flushed_eq V b c hb t) cover

end Cert.KernelIdeal.Region2

end
-- ==== Proof.Region3.lean ====
/-
  The fourth kernel region: a table h of 100000 rows and 64 columns times a 64 × 64 weight table, computed 4000 rows at a
  time.

  Point t of the 25 grid points reads rows 4000 t … 4000 t + 3999 of h and the whole weight table, and writes rows
  4000 t … 4000 t + 3999 of the result. Entry (p, q) of what it writes is the product accumulated into zero,
  Σ_k h(4000 t + p, k) · w(k, q) over the 64 shared positions, which is entry (4000 t + p, q) of the whole product. The
  25 row blocks tile the result, so after the last point the result table IS the whole product. No finiteness is used:
  zero is neutral for + on the extended reals and a change of float format is the identity.
-/
import proofs.«161979_j73323681677856_1_alg».proof.Proof.Gen.KernelIdeal.Frame
import proofs.«161979_j73323681677856_1_alg».proof.Proof.Gen.ReferenceIdeal
import proofs.«161979_j73323681677856_1_alg».proof.Proof.Stages
import proofs.«161979_j73323681677856_1_alg».proof.Proof.LibHostReads
import Idealize.ShloMosaic.Lib.Pipeline.Value
import Idealize.ShloMosaic.PureOps.Ideal.Laws

set_option maxRecDepth 16384

noncomputable section

open scoped BigOperators

namespace Cert.KernelIdeal.Region3

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- Entry (p, q) of one block's product: the contraction over the 64 shared positions. -/
theorem pay_apply (x0 : FVec Ideal S4000x64 .f32) (x1 : FVec Ideal S64x64 .f32) (p : Fin 4000) (q : Fin 64) :
    k3_pay1 (F := Ideal) x0 x1 (ix2 p q) = ∑ k : Fin 64, x0 (ix2 p k) * x1 (ix2 k q) := by
  unfold k3_pay1
  rw [shapeCast_self]
  refine (Ideal.matmul_constant_zero_apply dot_S4000x64_S64x64_S4000x64_1_0_0_1_n_n none _ _ (ix2 p q)).trans ?_
  exact Cert.Sage.LibDot.sum_plain dot_S4000x64_S64x64_S4000x64_1_0_0_1_n_n rfl rfl (fun _ _ => rfl) (fun _ _ => rfl)
    (fun _ _ => rfl) (fun _ _ => rfl) (fun i => x0 i) (fun i => x1 i) p q

/-- Entry (r, q) of the whole product. -/
theorem mm64_apply (h : Cert.Stages.T Ideal Cert.ReferenceIdeal.S100000x64 .f32) (w : Cert.Stages.T Ideal Cert.ReferenceIdeal.S64x64 .f32)
    (r : Fin 100000) (q : Fin 64) :
    Cert.Stages.mm64 h w (ix2 r q) = ∑ k : Fin 64, h (ix2 r k) * w (ix2 k q) := by
  unfold Cert.Stages.mm64
  exact Cert.LibHostReads.dot_apply ⟨rfl, rfl, fun _ _ => rfl, fun _ _ => rfl, fun _ _ => rfl, fun _ _ => rfl⟩ h w r q

theorem hz : (![0, 0] : Fin 2 → Nat) = fun _ => 0 := funext fun a => by fin_cases a <;> rfl

/-- The block numbers at point t: the row operand and the result move down with t, the weight table stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of point t's block of the row operand is row 4000 t + p of the table. -/
theorem read0 (c : Dev nD) (t : Fin cfg3.N) (p : Fin 4000) (k : Fin 64) (r : Fin 100000) (hr : r.val = 4000 * t.val + p.val) :
    iblk3 V c 0 t (ix2 p k) = V c main_v49 (ix2 r k) := by
  show V c main_v49 (((cfg3.win 0).blk t).view.emb (ix2 p k)) = V c main_v49 (ix2 r k)
  obtain ⟨e0, e1, -⟩ := idx_facts t
  refine congrArg _ (funext fun a => Fin.ext ?_)
  match a with
  | ⟨0, _⟩ => show win3_0.index t (0 : Fin 2) * 4000 + 1 * p.val = r.val; omega
  | ⟨1, _⟩ => show win3_0.index t (1 : Fin 2) * 64 + 1 * k.val = k.val; omega

/-- Every point's block of the weight table is the whole table. -/
theorem read1 (c : Dev nD) (t : Fin cfg3.N) (k : Fin 64) (q : Fin 64) :
    iblk3 V c 1 t (ix2 k q) = V c main_arg7 (ix2 k q) := by
  show V c main_arg7 (((cfg3.win 1).blk t).view.emb (ix2 k q)) = V c main_arg7 (ix2 k q)
  obtain ⟨-, -, e2, e3, -⟩ := idx_facts t
  refine congrArg _ (funext fun a => Fin.ext ?_)
  match a with
  | ⟨0, _⟩ => show win3_1.index t (0 : Fin 2) * 64 + 1 * k.val = k.val; omega
  | ⟨1, _⟩ => show win3_1.index t (1 : Fin 2) * 64 + 1 * q.val = q.val; omega

/-- What point t writes back is its block of the whole product. -/
theorem flushed_eq (c : Dev nD) (t : Fin cfg3.N) :
    (dat3 V c).flushed 2 t = ((cfg3.win 2).blk t).view.read (Elt Ideal) (Cert.Stages.mm64 (V c main_v49) (V c main_arg7)) := by
  show (cfg3.win 2).cut (grid3.coords t) ((dat3 V c).after 2 t) = _
  rw [after3_2]
  unfold out3_2
  rw [View.canon_unit_zero hz]
  simp only [View.ld_unit_zero (S := S4000x64) hz, View.ld_unit_zero (S := S64x64) hz]
  funext j
  obtain ⟨p, q, rfl⟩ : ∃ (p : Fin 4000) (q : Fin 64), j = ix2 p q := ⟨j 0, j 1, eq_ix2 j⟩
  have ht : t.val < 25 := t.isLt
  obtain ⟨-, -, -, -, e4, e5⟩ := idx_facts t
  have hemb : ((cfg3.win 2).blk t).view.emb (ix2 p q) = ix2 (⟨4000 * t.val + p.val, by omega⟩ : Fin 100000) q :=
    funext fun a => Fin.ext (by
      match a with
      | ⟨0, _⟩ => show win3_2.index t (0 : Fin 2) * 4000 + 1 * p.val = 4000 * t.val + p.val; omega
      | ⟨1, _⟩ => show win3_2.index t (1 : Fin 2) * 64 + 1 * q.val = q.val; omega)
  show k3_pay1 (iblk3 V c 0 t) (iblk3 V c 1 t) (ix2 p q)
    = Cert.Stages.mm64 (V c main_v49) (V c main_arg7) (((cfg3.win 2).blk t).view.emb (ix2 p q))
  rw [hemb]
  refine (pay_apply (iblk3 V c 0 t) (iblk3 V c 1 t) p q).trans ?_
  refine Eq.trans ?_ (mm64_apply (V c main_v49) (V c main_arg7) _ q).symm
  refine Finset.sum_congr rfl fun k _ => ?_
  rw [read0 V c t p k ⟨4000 * t.val + p.val, by omega⟩ rfl, read1 V c t k q]

/-- An index of the result is in point t's block iff each coordinate is in the block's range on its axis. -/
theorem mem_blk (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v50).slice (win3_2.rect t)).set ↔ _
  rw [View.set_slice_whole, Rect.mem_set_unit]
  exact Iff.rfl

/-- The 25 row blocks tile the result: row r is in block r / 4000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 4000 := ⟨⟨(i 0).val / 4000, by show _ < 25; omega⟩, rfl⟩
  obtain ⟨-, -, -, -, e4, e5⟩ := idx_facts t
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 64 ≤ (i 1).val ∧ (i 1).val < win3_2.index t (1 : Fin 2) * 64 + 64; omega

/-- After the region the result table is the whole product of the tables the region found. -/
theorem final (c : Dev nD) : (dat3 V c).arrAt 2 cfg3.N = Cert.Stages.mm64 (V c main_v49) (V c main_arg7) :=
  (dat3 V c).arrAt_eq_of_cover 2 _ (fun t _ => flushed_eq V c t) cover

end Cert.KernelIdeal.Region3

end
-- ==== Proof.Region4.lean ====
/-
  The fifth kernel region: a bias added to every row of a table of 100000 rows and 64 columns, then the leaky rectifier,
  4000 rows at a time.

  Point t of the 25 grid points reads rows 4000 t … 4000 t + 3999 of the table and the one-row bias table, and writes the
  same rows of the result: entry (p, q) of what it writes is lk (a(4000 t + p, q) + b(q)), with lk the leaky rectifier on
  one number. The 25 row blocks tile the result, so after the last point the result table is "bias, then rectifier" of
  the whole table. The bias reaches the region as a one-row table holding the bias vector's entries.
-/
import proofs.«161979_j73323681677856_1_alg».proof.Proof.Gen.KernelIdeal.Frame
import proofs.«161979_j73323681677856_1_alg».proof.Proof.Gen.ReferenceIdeal
import proofs.«161979_j73323681677856_1_alg».proof.Proof.Stages
import proofs.«161979_j73323681677856_1_alg».proof.Proof.StageReads
import proofs.«161979_j73323681677856_1_alg».proof.Proof.LibDense
import Idealize.ShloMosaic.Lib.Pipeline.Value

set_option maxRecDepth 16384

noncomputable section

open scoped BigOperators

namespace Cert.KernelIdeal.Region4

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- Entry (p, q) of one block's result: the rectifier of the entry plus the bias of its column. -/
theorem pay_apply (x0 : FVec Ideal S4000x64 .f32) (x1 : FVec Ideal S1x64 .f32) (p : Fin 4000) (q : Fin 64) :
    k4_pay1 (F := Ideal) x0 x1 (ix2 p q) = Cert.Stages.lk (x0 (ix2 p q) + x1 (ix2 (0 : Fin 1) q)) := by
  unfold k4_pay1
  show Cert.Stages.lk (addf (shapeCast S4000x64 x0 shapeCasts_S4000x64_S4000x64)
    (broadcastTo S4000x64 (shapeCast S1x64 x1 shapeCasts_S1x64_S1x64) broadcasts_S1x64_S4000x64) (ix2 p q)) = _
  rw [addf_apply, shapeCast_self, Cert.LibDense.bias_apply]

theorem hz : (![0, 0] : Fin 2 → Nat) = fun _ => 0 := funext fun a => by fin_cases a <;> rfl

/-- The block numbers at point t: the table and the result move down with t, the bias row stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of point t's block of the table is row 4000 t + p of the table. -/
theorem read0 (c : Dev nD) (t : Fin cfg4.N) (p : Fin 4000) (k : Fin 64) (r : Fin 100000) (hr : r.val = 4000 * t.val + p.val) :
    iblk4 V c 0 t (ix2 p k) = V c main_v63 (ix2 r k) := by
  show V c main_v63 (((cfg4.win 0).blk t).view.emb (ix2 p k)) = V c main_v63 (ix2 r k)
  obtain ⟨e0, e1, -⟩ := idx_facts t
  refine congrArg _ (funext fun a => Fin.ext ?_)
  match a with
  | ⟨0, _⟩ => show win4_0.index t (0 : Fin 2) * 4000 + 1 * p.val = r.val; omega
  | ⟨1, _⟩ => show win4_0.index t (1 : Fin 2) * 64 + 1 * k.val = k.val; omega

/-- Every point's block of the bias row is the whole row. -/
theorem read1 (c : Dev nD) (t : Fin cfg4.N) (q : Fin 64) :
    iblk4 V c 1 t (ix2 (0 : Fin 1) q) = V c main_v64 (ix2 (0 : Fin 1) q) := by
  show V c main_v64 (((cfg4.win 1).blk t).view.emb (ix2 (0 : Fin 1) q)) = V c main_v64 (ix2 (0 : Fin 1) q)
  obtain ⟨-, -, e2, e3, -⟩ := idx_facts t
  refine congrArg _ (funext fun a => Fin.ext ?_)
  match a with
  | ⟨0, _⟩ => show win4_1.index t (0 : Fin 2) * 1 + 1 * 0 = 0; omega
  | ⟨1, _⟩ => show win4_1.index t (1 : Fin 2) * 64 + 1 * q.val = q.val; omega

/-- What point t writes back is its block of "bias, then rectifier" of the whole table. -/
theorem flushed_eq (b : Cert.Stages.T Ideal Cert.ReferenceIdeal.S64 .f32) (c : Dev nD)
    (hb : ∀ q : Fin 64, V c main_v64 (ix2 (0 : Fin 1) q) = b (ix1 q)) (t : Fin cfg4.N) :
    (dat4 V c).flushed 2 t = ((cfg4.win 2).blk t).view.read (Elt Ideal) (Cert.Stages.biasAct (V c main_v63) b) := by
  show (cfg4.win 2).cut (grid4.coords t) ((dat4 V c).after 2 t) = _
  rw [after4_2]
  unfold out4_2
  rw [View.canon_unit_zero hz]
  simp only [View.ld_unit_zero (S := S4000x64) hz, View.ld_unit_zero (S := S1x64) hz]
  funext j
  obtain ⟨p, q, rfl⟩ : ∃ (p : Fin 4000) (q : Fin 64), j = ix2 p q := ⟨j 0, j 1, eq_ix2 j⟩
  have ht : t.val < 25 := t.isLt
  obtain ⟨-, -, -, -, e4, e5⟩ := idx_facts t
  have hemb : ((cfg4.win 2).blk t).view.emb (ix2 p q) = ix2 (⟨4000 * t.val + p.val, by omega⟩ : Fin 100000) q :=
    funext fun a => Fin.ext (by
      match a with
      | ⟨0, _⟩ => show win4_2.index t (0 : Fin 2) * 4000 + 1 * p.val = 4000 * t.val + p.val; omega
      | ⟨1, _⟩ => show win4_2.index t (1 : Fin 2) * 64 + 1 * q.val = q.val; omega)
  show k4_pay1 (iblk4 V c 0 t) (iblk4 V c 1 t) (ix2 p q)
    = Cert.Stages.biasAct (V c main_v63) b (((cfg4.win 2).blk t).view.emb (ix2 p q))
  rw [hemb]
  refine (pay_apply (iblk4 V c 0 t) (iblk4 V c 1 t) p q).trans ?_
  rw [Cert.Stages.biasAct_apply, read0 V c t p q ⟨4000 * t.val + p.val, by omega⟩ rfl, read1 V c t q, hb q]

/-- An index of the result is in point t's block iff each coordinate is in the block's range on its axis. -/
theorem mem_blk (t : Fin cfg4.N) (i : S100000x64.Idx) :
    i ∈ ((cfg4.win 2).blk t).view.set ↔ ∀ a : Fin 2, win4_2.index t a * S4000x64.size a ≤ (i a).val ∧ (i a).val < win4_2.index t a * S4000x64.size a + S4000x64.size a := by
  show i ∈ ((View.whole main_v65).slice (win4_2.rect t)).set ↔ _
  rw [View.set_slice_whole, Rect.mem_set_unit]
  exact Iff.rfl

/-- The 25 row blocks tile the result: row r is in block r / 4000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 4000 := ⟨⟨(i 0).val / 4000, by show _ < 25; omega⟩, rfl⟩
  obtain ⟨-, -, -, -, e4, e5⟩ := idx_facts t
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 64 ≤ (i 1).val ∧ (i 1).val < win4_2.index t (1 : Fin 2) * 64 + 64; omega

/-- After the region the result table is "bias, then rectifier" of the table the region found. -/
theorem final (b : Cert.Stages.T Ideal Cert.ReferenceIdeal.S64 .f32) (c : Dev nD)
    (hb : ∀ q : Fin 64, V c main_v64 (ix2 (0 : Fin 1) q) = b (ix1 q)) :
    (dat4 V c).arrAt 2 cfg4.N = Cert.Stages.biasAct (V c main_v63) b :=
  (dat4 V c).arrAt_eq_of_cover 2 _ (fun t _ => flushed_eq V b c hb t) cover

end Cert.KernelIdeal.Region4

end
-- ==== Proof.Softmax.lean ====
/-
  The logarithm of the softmax of a row, and the last layer read at an entry.

  For a row z of 40 extended reals put  rowMax z  for the maximum of its entries and of -∞ (a fold of max from -∞), and
  lsmRow z q = (z q − rowMax z) − log Σ_j exp (z j − rowMax z). The array program takes the row maxima by a reduction from
  -∞, takes once more the maximum with -∞ (which changes nothing: the fold already dominates its starting value), lays
  the maxima along the rows as a one-column table repeated over 40 columns, and sums the exponentials from 0 (which adds
  nothing). So entry (r, q) of the logarithm of the softmax of a table x is lsmRow of row r of x at q, and entry (r, q)
  of the last layer is lsmRow of the row  j ↦ Σ_k h(r, k) · w(k, j) + b(j)  at q. No finiteness is used.
-/
import proofs.«161979_j73323681677856_1_alg».proof.Proof.Gen.ReferenceIdeal
import proofs.«161979_j73323681677856_1_alg».proof.Proof.Stages
import proofs.«161979_j73323681677856_1_alg».proof.Proof.LibDenseRef
import proofs.«161979_j73323681677856_1_alg».proof.Proof.LibHostReads
import proofs.«161979_j73323681677856_1_alg».proof.Proof.LibKeepdims
import Idealize.ShloMosaic.Lib.ValueIdx
import Idealize.ShloMosaic.PureOps.Ideal.Laws
import Mathlib.Data.Finset.Fold

noncomputable section

open scoped BigOperators

namespace Cert.Stages

open Idealize.ShloMosaic Idealize.ShloMosaic.ValueIdx Cert.ReferenceIdeal Cert.ReferenceIdeal.Facts₀ Cert.ReferenceIdeal.Facts
open Cert.LibKeepdims (vec_col_apply)

/-- The maximum of a row's 40 entries and of -∞. -/
def rowMax (z : Fin 40 → Ideal .f32) : Ideal .f32 :=
  (Finset.univ : Finset (Fin 40)).fold max (Ideal.ofBits .f32 0xFF800000#32) z

/-- The logarithm of the softmax of a row, at position q. -/
def lsmRow (z : Fin 40 → Ideal .f32) (q : Fin 40) : Ideal .f32 :=
  (z q - rowMax z) - Ideal.log (∑ j : Fin 40, Ideal.exp (z j - rowMax z))

/-- The fold of max dominates its starting value, so one more maximum with that value changes nothing. -/
theorem max_rowMax (z : Fin 40 → Ideal .f32) : max (Ideal.ofBits .f32 0xFF800000#32) (rowMax z) = rowMax z :=
  max_eq_right ((Finset.le_fold_max (s := (Finset.univ : Finset (Fin 40))) (f := z) _).mpr (Or.inl le_rfl))

/-- The index that a reduction along the columns reads: row r, column j. -/
theorem lift_row (h : S100000x40.Reduces [1] S100000) (r : Fin 100000) (j : Fin 40) : h.lift (ix1 r) j = ix2 r j :=
  funext fun a => Fin.ext (by
    match a with
    | ⟨0, _⟩ => rfl
    | ⟨1, _⟩ => rfl)

/-- The row maxima taken by the array program's reduction from -∞. -/
theorem reduceMax_apply (x : T Ideal S100000x40 .f32) (r : Fin 100000) :
    Host.reduce FloatOps.maximumf x (constant (F := Ideal) S_ .f32 0xFF800000#32) reducesTo_S100000x40_S100000_d1 h_S_ (ix1 r)
      = rowMax fun j => x (ix2 r j) := by
  have h : S100000x40.Reduces [1] S100000 := by decide
  refine (Host.reduce_eq_fold_single (FloatOps.maximumf (F := Ideal) (φ := .f32)) x _ reducesTo_S100000x40_S100000_d1 h h_S_ (ix1 r)).trans ?_
  unfold rowMax
  refine congrArg₂ (fun a f => (Finset.univ : Finset (Fin 40)).fold max a f) rfl ?_
  funext j
  exact congrArg x (lift_row h r j)

/-- The row sums taken by the array program's reduction from 0. -/
theorem reduceAdd_apply (y : T Ideal S100000x40 .f32) (r : Fin 100000) :
    Host.reduceAdd y (constant (F := Ideal) S_ .f32 0x00000000#32) reducesTo_S100000x40_S100000_d1 h_S_ (ix1 r)
      = ∑ j : Fin 40, y (ix2 r j) := by
  have h : S100000x40.Reduces [1] S100000 := by decide
  refine (Ideal.hostReduceAdd_single reducesTo_S100000x40_S100000_d1 h y _ (ix1 r)).trans ?_
  rw [show constant (F := Ideal) S_ .f32 0x00000000#32 (Shape.Idx.first h_S_) = (0 : EReal) from Ideal.ofBits_zero_f32, zero_add]
  exact Finset.sum_congr rfl fun j _ => congrArg y (lift_row h r j)

/-- The exponential and the logarithm act entry by entry. -/
theorem hostExp_apply {s : Shape} (y : FVec Ideal s .f32) (i : s.Idx) : Host.exp y i = Ideal.exp (y i) := rfl
theorem hostLog_apply {s : Shape} (y : FVec Ideal s .f32) (i : s.Idx) : Host.log y i = Ideal.log (y i) := rfl

/-- The shifted table at entry (r, t): the entry less its row's maximum. -/
theorem shift_apply (x : T Ideal S100000x40 .f32) (r : Fin 100000) (t : Fin 40) :
    shift x (ix2 r t) = x (ix2 r t) - rowMax fun j => x (ix2 r j) := by
  unfold shift
  rw [subf_apply, Cert.LibHostReads.bcast_col_apply, vec_col_apply, maximumf_apply, Cert.LibDenseRef.scalar_apply, reduceMax_apply]
  exact congrArg (fun s => x (ix2 r t) - s) (max_rowMax _)

/-- The logarithm of the softmax of a table at entry (r, q). -/
theorem logSoftmax_apply (x : T Ideal S100000x40 .f32) (r : Fin 100000) (q : Fin 40) :
    logSoftmax x (ix2 r q) = lsmRow (fun j => x (ix2 r j)) q := by
  unfold logSoftmax lsmRow
  rw [subf_apply, shift_apply, Cert.LibHostReads.bcast_col_apply, hostLog_apply, vec_col_apply, reduceAdd_apply]
  refine congrArg (fun s => (x (ix2 r q) - rowMax fun j => x (ix2 r j)) - Ideal.log s) ?_
  refine Finset.sum_congr rfl fun j _ => ?_
  rw [hostExp_apply, shift_apply]

/-- The last layer at entry (r, q). -/
theorem dense5_apply (h : T Ideal S100000x64 .f32) (w : T Ideal S64x40 .f32) (b : T Ideal S40 .f32) (r : Fin 100000) (q : Fin 40) :
    dense5 h w b (ix2 r q) = lsmRow (fun j => (∑ k : Fin 64, h (ix2 r k) * w (ix2 k j)) + b (ix1 j)) q := by
  unfold dense5 bias40
  rw [logSoftmax_apply]
  refine congrArg (fun z => lsmRow z q) (funext fun j => ?_)
  exact Cert.LibDenseRef.lin_apply dot_S100000x64_S64x40_S100000x40_1_0_0_1_n_n rfl rfl (fun _ _ => rfl) (fun _ _ => rfl)
    (fun _ _ => rfl) (fun _ _ => rfl) h w b bcast_S40_S1x40_1 bcast_S1x40_S100000x40_0_1 r j

end Cert.Stages

end
-- ==== Proof.Region5.lean ====
/-
  The sixth kernel region: the last dense layer and the logarithm of the softmax of its rows, 4000 rows at a time.

  Point t of the 25 grid points reads rows 4000 t … 4000 t + 3999 of the 100000 × 64 table h, the whole 64 × 40 weight
  table and the one-row bias table. Row p of its block of logits is  j ↦ Σ_k h(4000 t + p, k) · w(k, j) + b(j); the row's
  maximum is a reduction from -∞ along the 40 columns, laid back along the row as a one-column table repeated over the
  columns; the exponentials of the shifted row are summed from 0 the same way; and entry (p, q) of what the point writes
  is lsmRow of that row at q. That is entry (4000 t + p, q) of the whole last layer, and the 25 row blocks tile the
  result. No finiteness is used.
-/
import proofs.«161979_j73323681677856_1_alg».proof.Proof.Gen.KernelIdeal.Frame
import proofs.«161979_j73323681677856_1_alg».proof.Proof.Gen.ReferenceIdeal
import proofs.«161979_j73323681677856_1_alg».proof.Proof.Stages
import proofs.«161979_j73323681677856_1_alg».proof.Proof.Softmax
import proofs.«161979_j73323681677856_1_alg».proof.Proof.LibDense
import proofs.«161979_j73323681677856_1_alg».proof.Proof.LibKeepdims
import Idealize.ShloMosaic.Lib.Pipeline.Value
import Idealize.ShloMosaic.PureOps.Ideal.Laws

set_option maxRecDepth 16384

noncomputable section

open scoped BigOperators

namespace Cert.KernelIdeal.Region5

open Idealize.ShloMosaic Idealize.ShloMosaic.TcCoe Idealize.ShloMosaic.ValueIdx Idealize.ShloMosaic.Pipeline Cert.KernelIdeal Cert.KernelIdeal.Gen
open Cert.LibKeepdims (col_cast_apply col_bcast_apply)

variable (V : (c : Dev nD) → (b : Ref sig .tc) → Buf (Elt Ideal) ((c : Thread nD τ).loc b))

/-- The index that a reduction along a block's columns reads: row p, column j. -/
theorem lift_row (h : S4000x40.Reduces [1] S4000) (p : Fin 4000) (j : Fin 40) : h.lift (ix1 p) j = ix2 p j :=
  funext fun a => Fin.ext (by
    match a with
    | ⟨0, _⟩ => rfl
    | ⟨1, _⟩ => rfl)

/-- A block's row maxima, reduced from -∞. -/
theorem kmax_apply (v : FVec Ideal S4000x40 .f32) (p : Fin 4000) :
    multiReduction .maximumf [1] S4000 v 0xFF800000#32 reduces_S4000x40_S4000 (.inl rfl) rfl (ix1 p)
      = Cert.Stages.rowMax fun j => v (ix2 p j) := by
  refine (Ideal.multiReduction_maximumf_single v _ reduces_S4000x40_S4000 (.inl rfl) rfl (ix1 p)).trans ?_
  unfold Cert.Stages.rowMax
  exact congrArg₂ (fun a f => (Finset.univ : Finset (Fin 40)).fold max a f) rfl
    (funext fun j => congrArg v (lift_row reduces_S4000x40_S4000 p j))

/-- A block's row sums, reduced from 0. -/
theorem ksum_apply (v : FVec Ideal S4000x40 .f32) (p : Fin 4000) :
    multiReduction .add [1] S4000 v 0x00000000#32 reduces_S4000x40_S4000 (.inl rfl) rfl (ix1 p) = ∑ j : Fin 40, v (ix2 p j) := by
  refine (Ideal.multiReduction_add_single v _ reduces_S4000x40_S4000 (.inl rfl) rfl (ix1 p)).trans ?_
  exact Finset.sum_congr rfl fun j _ => congrArg v (lift_row reduces_S4000x40_S4000 p j)

theorem vexp_apply {s : Shape} (y : FVec Ideal s .f32) (i : s.Idx) : exp y i = Ideal.exp (y i) := rfl
theorem vlog_apply {s : Shape} (y : FVec Ideal s .f32) (i : s.Idx) : log y i = Ideal.log (y i) := rfl

/-- A block of logits with every row shifted by its maximum. -/
def blockShift (v : FVec Ideal S4000x40 .f32) : FVec Ideal S4000x40 .f32 :=
  subf v (broadcastTo S4000x40 (shapeCast S4000x1 (multiReduction .maximumf [1] S4000 v 0xFF800000#32 reduces_S4000x40_S4000 (.inl rfl) rfl)
    shapeCasts_S4000_S4000x1) broadcasts_S4000x1_S4000x40)

/-- The logarithm of the softmax of every row of a block of logits. -/
def blockLsm (v : FVec Ideal S4000x40 .f32) : FVec Ideal S4000x40 .f32 :=
  subf (blockShift v) (broadcastTo S4000x40 (log (shapeCast S4000x1
    (multiReduction .add [1] S4000 (exp (blockShift v)) 0x00000000#32 reduces_S4000x40_S4000 (.inl rfl) rfl) shapeCasts_S4000_S4000x1))
    broadcasts_S4000x1_S4000x40)

theorem blockShift_apply (v : FVec Ideal S4000x40 .f32) (p : Fin 4000) (t : Fin 40) :
    blockShift v (ix2 p t) = v (ix2 p t) - Cert.Stages.rowMax fun j => v (ix2 p j) := by
  unfold blockShift
  rw [subf_apply, col_bcast_apply, col_cast_apply, kmax_apply]

theorem blockLsm_apply (v : FVec Ideal S4000x40 .f32) (p : Fin 4000) (q : Fin 40) :
    blockLsm v (ix2 p q) = Cert.Stages.lsmRow (fun j => v (ix2 p j)) q := by
  unfold blockLsm Cert.Stages.lsmRow
  rw [subf_apply, blockShift_apply, col_bcast_apply, vlog_apply, col_cast_apply, ksum_apply]
  refine congrArg (fun s => (v (ix2 p q) - Cert.Stages.rowMax fun j => v (ix2 p j)) - Ideal.log s) ?_
  refine Finset.sum_congr rfl fun j _ => ?_
  rw [vexp_apply, blockShift_apply]

/-- The body's arithmetic is the block log-softmax of the block of logits. -/
theorem pay_eq (x0 : FVec Ideal S4000x64 .f32) (x1 : FVec Ideal S64x40 .f32) (x2 : FVec Ideal S1x40 .f32) :
    k5_pay1 (F := Ideal) x0 x1 x2
      = blockLsm (addf (matmul dot_S4000x64_S64x40_S4000x40_1_0_0_1_n_n none
          (truncf .bf16 (shapeCast S4000x64 x0 shapeCasts_S4000x64_S4000x64) bitsLt_bf16_f32) (truncf .bf16 x1 bitsLt_bf16_f32)
          (constant (F := Ideal) S4000x40 .f32 0x00000000#32))
        (broadcastTo S4000x40 (shapeCast S1x40 x2 shapeCasts_S1x40_S1x40) broadcasts_S1x40_S4000x40)) := rfl

/-- Entry (p, q) of one block's result: lsmRow of the block's row p of logits. -/
theorem pay_apply (x0 : FVec Ideal S4000x64 .f32) (x1 : FVec Ideal S64x40 .f32) (x2 : FVec Ideal S1x40 .f32) (p : Fin 4000) (q : Fin 40) :
    k5_pay1 (F := Ideal) x0 x1 x2 (ix2 p q)
      = Cert.Stages.lsmRow (fun j => (∑ k : Fin 64, x0 (ix2 p k) * x1 (ix2 k j)) + x2 (ix2 (0 : Fin 1) j)) q := by
  rw [pay_eq, blockLsm_apply]
  refine congrArg (fun z => Cert.Stages.lsmRow z q) (funext fun j => ?_)
  exact Cert.LibDense.lin_apply_x dot_S4000x64_S64x40_S4000x40_1_0_0_1_n_n rfl rfl (fun _ _ => rfl) (fun _ _ => rfl) (fun _ _ => rfl)
    (fun _ _ => rfl) x0 x1 x2 shapeCasts_S4000x64_S4000x64 shapeCasts_S1x40_S1x40 broadcasts_S1x40_S4000x40 bitsLt_bf16_f32 p j

theorem hz : (![0, 0] : Fin 2 → Nat) = fun _ => 0 := funext fun a => by fin_cases a <;> rfl

/-- The block numbers at point t: the table h and the result move down with t, the weights and the bias row stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row p of point t's block of h is row 4000 t + p of h. -/
theorem read0 (c : Dev nD) (t : Fin cfg5.N) (p : Fin 4000) (k : Fin 64) (r : Fin 100000) (hr : r.val = 4000 * t.val + p.val) :
    iblk5 V c 0 t (ix2 p k) = V c main_v65 (ix2 r k) := by
  show V c main_v65 (((cfg5.win 0).blk t).view.emb (ix2 p k)) = V c main_v65 (ix2 r k)
  obtain ⟨e0, e1, -⟩ := idx_facts t
  refine congrArg _ (funext fun a => Fin.ext ?_)
  match a with
  | ⟨0, _⟩ => show win5_0.index t (0 : Fin 2) * 4000 + 1 * p.val = r.val; omega
  | ⟨1, _⟩ => show win5_0.index t (1 : Fin 2) * 64 + 1 * k.val = k.val; omega

/-- Every point's block of the weight table is the whole table. -/
theorem read1 (c : Dev nD) (t : Fin cfg5.N) (k : Fin 64) (q : Fin 40) :
    iblk5 V c 1 t (ix2 k q) = V c main_arg9 (ix2 k q) := by
  show V c main_arg9 (((cfg5.win 1).blk t).view.emb (ix2 k q)) = V c main_arg9 (ix2 k q)
  obtain ⟨-, -, e2, e3, -⟩ := idx_facts t
  refine congrArg _ (funext fun a => Fin.ext ?_)
  match a with
  | ⟨0, _⟩ => show win5_1.index t (0 : Fin 2) * 64 + 1 * k.val = k.val; omega
  | ⟨1, _⟩ => show win5_1.index t (1 : Fin 2) * 40 + 1 * q.val = q.val; omega

/-- Every point's block of the bias row is the whole row. -/
theorem read2 (c : Dev nD) (t : Fin cfg5.N) (q : Fin 40) :
    iblk5 V c 2 t (ix2 (0 : Fin 1) q) = V c main_v66 (ix2 (0 : Fin 1) q) := by
  show V c main_v66 (((cfg5.win 2).blk t).view.emb (ix2 (0 : Fin 1) q)) = V c main_v66 (ix2 (0 : Fin 1) q)
  obtain ⟨-, -, -, -, e4, e5, -⟩ := idx_facts t
  refine congrArg _ (funext fun a => Fin.ext ?_)
  match a with
  | ⟨0, _⟩ => show win5_2.index t (0 : Fin 2) * 1 + 1 * 0 = 0; omega
  | ⟨1, _⟩ => show win5_2.index t (1 : Fin 2) * 40 + 1 * q.val = q.val; omega

/-- What point t writes back is its block of the whole last layer. -/
theorem flushed_eq (b : Cert.Stages.T Ideal Cert.ReferenceIdeal.S40 .f32) (c : Dev nD)
    (hb : ∀ q : Fin 40, V c main_v66 (ix2 (0 : Fin 1) q) = b (ix1 q)) (t : Fin cfg5.N) :
    (dat5 V c).flushed 3 t = ((cfg5.win 3).blk t).view.read (Elt Ideal) (Cert.Stages.dense5 (V c main_v65) (V c main_arg9) b) := by
  show (cfg5.win 3).cut (grid5.coords t) ((dat5 V c).after 3 t) = _
  rw [after5_3]
  unfold out5_3
  rw [View.canon_unit_zero hz]
  simp only [View.ld_unit_zero (S := S4000x64) hz, View.ld_unit_zero (S := S64x40) hz, View.ld_unit_zero (S := S1x40) hz]
  funext j
  obtain ⟨p, q, rfl⟩ : ∃ (p : Fin 4000) (q : Fin 40), j = ix2 p q := ⟨j 0, j 1, eq_ix2 j⟩
  have ht : t.val < 25 := t.isLt
  obtain ⟨-, -, -, -, -, -, e6, e7⟩ := idx_facts t
  have hemb : ((cfg5.win 3).blk t).view.emb (ix2 p q) = ix2 (⟨4000 * t.val + p.val, by omega⟩ : Fin 100000) q :=
    funext fun a => Fin.ext (by
      match a with
      | ⟨0, _⟩ => show win5_3.index t (0 : Fin 2) * 4000 + 1 * p.val = 4000 * t.val + p.val; omega
      | ⟨1, _⟩ => show win5_3.index t (1 : Fin 2) * 40 + 1 * q.val = q.val; omega)
  show k5_pay1 (iblk5 V c 0 t) (iblk5 V c 1 t) (iblk5 V c 2 t) (ix2 p q)
    = Cert.Stages.dense5 (V c main_v65) (V c main_arg9) b (((cfg5.win 3).blk t).view.emb (ix2 p q))
  rw [hemb]
  refine (pay_apply (iblk5 V c 0 t) (iblk5 V c 1 t) (iblk5 V c 2 t) p q).trans ?_
  rw [Cert.Stages.dense5_apply]
  refine congrArg (fun z => Cert.Stages.lsmRow z q) (funext fun j => ?_)
  rw [read2 V c t j, hb j]
  refine congrArg (fun s => s + b (ix1 j)) ?_
  refine Finset.sum_congr rfl fun k _ => ?_
  rw [read0 V c t p k ⟨4000 * t.val + p.val, by omega⟩ rfl, read1 V c t k j]

/-- An index of the result is in point t's block iff each coordinate is in the block's range on its axis. -/
theorem mem_blk (t : Fin cfg5.N) (i : S100000x40.Idx) :
    i ∈ ((cfg5.win 3).blk t).view.set ↔ ∀ a : Fin 2, win5_3.index t a * S4000x40.size a ≤ (i a).val ∧ (i a).val < win5_3.index t a * S4000x40.size a + S4000x40.size a := by
  show i ∈ ((View.whole main_v67).slice (win5_3.rect t)).set ↔ _
  rw [View.set_slice_whole, Rect.mem_set_unit]
  exact Iff.rfl

/-- The 25 row blocks tile the result: row r is in block r / 4000. -/
theorem cover (i : S100000x40.Idx) : ∃ t : Fin cfg5.N, (cfg5.win 3).flush t = true ∧ i ∈ ((cfg5.win 3).blk t).view.set := by
  have hi0 : (i 0).val < 100000 := (i 0).isLt
  have hi1 : (i 1).val < 40 := (i 1).isLt
  obtain ⟨t, ht⟩ : ∃ t : Fin cfg5.N, t.val = (i 0).val / 4000 := ⟨⟨(i 0).val / 4000, by show _ < 25; omega⟩, rfl⟩
  obtain ⟨-, -, -, -, -, -, e6, e7⟩ := idx_facts t
  refine ⟨t, flush5_3 t, ?_⟩
  rw [mem_blk]
  intro a
  match a with
  | ⟨0, _⟩ => show win5_3.index t (0 : Fin 2) * 4000 ≤ (i 0).val ∧ (i 0).val < win5_3.index t (0 : Fin 2) * 4000 + 4000; omega
  | ⟨1, _⟩ => show win5_3.index t (1 : Fin 2) * 40 ≤ (i 1).val ∧ (i 1).val < win5_3.index t (1 : Fin 2) * 40 + 40; omega

/-- After the region the result table is the last layer of the tables the region found. -/
theorem final (b : Cert.Stages.T Ideal Cert.ReferenceIdeal.S40 .f32) (c : Dev nD)
    (hb : ∀ q : Fin 40, V c main_v66 (ix2 (0 : Fin 1) q) = b (ix1 q)) :
    (dat5 V c).arrAt 3 cfg5.N = Cert.Stages.dense5 (V c main_v65) (V c main_arg9) b :=
  (dat5 V c).arrAt_eq_of_cover 3 _ (fun t _ => flushed_eq V b c hb t) cover

end Cert.KernelIdeal.Region5

end
-- ==== Proof.KernelChain.lean ====
/-
  The kernel program's result as the network of the argument tables.

  The contents of the buffers are followed from the launch to the return. Before the first region the host computes the
  endpoint lists, the coefficients and the first bias as one row; region 0 leaves the first dense layer; region 1 its
  product with the first square weight table; the host's first propagation step and the second bias as one row follow;
  region 2 adds that bias and rectifies; region 3 multiplies by the second square weight table; the host's second
  propagation step and the third bias as one row follow; region 4 adds that bias and rectifies; the host re-shapes the
  last bias to one row; region 5 leaves the last layer's logarithm of the softmax. Every table a later stage still needs
  is untouched by the stages in between: a region writes only its own output table, and a stretch of host operations
  only its own fresh tables.
-/
import proofs.«161979_j73323681677856_1_alg».proof.Proof.Gen.KernelIdeal.Frame
import proofs.«161979_j73323681677856_1_alg».proof.Proof.Gen.ReferenceIdeal
import proofs.«161979_j73323681677856_1_alg».proof.Proof.Stages
import proofs.«161979_j73323681677856_1_alg».proof.Proof.HostWin
import proofs.«161979_j73323681677856_1_alg».proof.Proof.Region0
import proofs.«161979_j73323681677856_1_alg».proof.Proof.Region1
import proofs.«161979_j73323681677856_1_alg».proof.Proof.Region2
import proofs.«161979_j73323681677856_1_alg».proof.Proof.Region3
import proofs.«161979_j73323681677856_1_alg».proof.Proof.Region4
import proofs.«161979_j73323681677856_1_alg».proof.Proof.Region5

set_option maxRecDepth 16384
set_option quotPrecheck false

noncomputable section

namespace Cert.KernelIdeal.Chain

open Idealize.ShloMosaic Idealize.ShloMosaic.TcCoe Idealize.ShloMosaic.ValueIdx Idealize.ShloMosaic.StableHlo
open Cert.KernelIdeal Cert.KernelIdeal.Gen Cert.KernelIdeal.HostWin

variable (m : (ℓ : Loc nD τ sig) → Buf (Elt Ideal) ℓ) (ρ : Dev nD → PrngReg) (c : Dev nD)

/-! The argument tables as launched, and the stages' values. -/
local notation "A0" => W0 m ρ c (Proc.devRef .tc main_arg0)
local notation "A1" => W0 m ρ c (Proc.devRef .tc main_arg1)
local notation "A2" => W0 m ρ c (Proc.devRef .tc main_arg2)
local notation "A3" => W0 m ρ c (Proc.devRef .tc main_arg3)
local notation "A4" => W0 m ρ c (Proc.devRef .tc main_arg4)
local notation "A5" => W0 m ρ c (Proc.devRef .tc main_arg5)
local notation "A6" => W0 m ρ c (Proc.devRef .tc main_arg6)
local notation "A7" => W0 m ρ c (Proc.devRef .tc main_arg7)
local notation "A8" => W0 m ρ c (Proc.devRef .tc main_arg8)
local notation "A9" => W0 m ρ c (Proc.devRef .tc main_arg9)
local notation "A10" => W0 m ρ c (Proc.devRef .tc main_arg10)
local notation "SRC" => Cert.Stages.srcOf (W0 m ρ c (Proc.devRef .tc main_arg1))
local notation "DST" => Cert.Stages.dstOf (W0 m ρ c (Proc.devRef .tc main_arg1))
local notation "NRM" => Cert.Stages.normOf (W0 m ρ c (Proc.devRef .tc main_arg1)) (W0 m ρ c (Proc.devRef .tc main_arg2))
local notation "H0" => Cert.Stages.dense0 A0 A3 A4
local notation "H0W" => Cert.Stages.mm64 H0 A5
local notation "H1" => Cert.Stages.biasAct (Cert.Stages.agg H0W SRC DST NRM) A6
local notation "H1W" => Cert.Stages.mm64 H1 A7
local notation "H2" => Cert.Stages.biasAct (Cert.Stages.agg H1W SRC DST NRM) A8

/-! ## Before the first region -/

theorem W3_eq : W3 m ρ c = after (hostOps0 ++ (hostOps0_1 ++ hostOps0_2)) (W0 m ρ c) := by
  rw [after_append, after_append]

theorem w3_arg0 : W3 m ρ c (Proc.devRef .tc main_arg0) = A0 := by rw [W3_eq]; host_read
theorem w3_arg3 : W3 m ρ c (Proc.devRef .tc main_arg3) = A3 := by rw [W3_eq]; host_read
theorem w3_arg5 : W3 m ρ c (Proc.devRef .tc main_arg5) = A5 := by rw [W3_eq]; host_read
theorem w3_arg6 : W3 m ρ c (Proc.devRef .tc main_arg6) = A6 := by rw [W3_eq]; host_read
theorem w3_arg7 : W3 m ρ c (Proc.devRef .tc main_arg7) = A7 := by rw [W3_eq]; host_read
theorem w3_arg8 : W3 m ρ c (Proc.devRef .tc main_arg8) = A8 := by rw [W3_eq]; host_read
theorem w3_arg9 : W3 m ρ c (Proc.devRef .tc main_arg9) = A9 := by rw [W3_eq]; host_read
theorem w3_arg10 : W3 m ρ c (Proc.devRef .tc main_arg10) = A10 := by rw [W3_eq]; host_read
theorem w3_v3 : W3 m ρ c (Proc.devRef .tc main_v3) = SRC := by rw [W3_eq]; host_read; host_tidy; rfl
theorem w3_v6 : W3 m ρ c (Proc.devRef .tc main_v6) = DST := by rw [W3_eq]; host_read; host_tidy; rfl
theorem w3_v32 (q : Fin 64) : W3 m ρ c (Proc.devRef .tc main_v32) (ix2 (0 : Fin 1) q) = A4 (ix1 q) := by
  rw [W3_eq]; host_read; host_tidy; exact Cert.LibKeepdims.row_cast_apply _ _ q

/-- The coefficients: the first stretch leaves the endpoint lists, the weights, the degrees' positivity mask and reciprocal
    root; the second selects the scale table from those; the third multiplies the gathered scales by the weights. -/
theorem w3_v31 : W3 m ρ c (Proc.devRef .tc main_v31) = NRM := by
  have e31 : W3 m ρ c (Proc.devRef .tc main_v31) = Cert.Stages.normFrom (W2 m ρ c (Proc.devRef .tc main_v15)) (W2 m ρ c (Proc.devRef .tc main_v3)) (W2 m ρ c (Proc.devRef .tc main_v6)) (W2 m ρ c (Proc.devRef .tc main_v8)) :=
    C_v31 (W2 m ρ c)
  have e15 : W2 m ρ c (Proc.devRef .tc main_v15) = select (W1 m ρ c (Proc.devRef .tc main_v13)) (W1 m ρ c (Proc.devRef .tc main_v14))
      (broadcastInDim S100000 ![] bcast_S_S100000 (id (W1 m ρ c (Proc.devRef .tc main_cst_2)))) := B_v15 (W1 m ρ c)
  have k3 : W2 m ρ c (Proc.devRef .tc main_v3) = W1 m ρ c (Proc.devRef .tc main_v3) := by
    show after hostOps0_1 (W1 m ρ c) _ = _; host_read
  have k6 : W2 m ρ c (Proc.devRef .tc main_v6) = W1 m ρ c (Proc.devRef .tc main_v6) := by
    show after hostOps0_1 (W1 m ρ c) _ = _; host_read
  have k8 : W2 m ρ c (Proc.devRef .tc main_v8) = W1 m ρ c (Proc.devRef .tc main_v8) := by
    show after hostOps0_1 (W1 m ρ c) _ = _; host_read
  rw [e31, e15, k3, k6, k8, show W1 m ρ c (Proc.devRef .tc main_v3) = SRC from A_v3 (W0 m ρ c), show W1 m ρ c (Proc.devRef .tc main_v6) = DST from A_v6 (W0 m ρ c),
    show W1 m ρ c (Proc.devRef .tc main_v8) = Cert.Stages.weightOf A2 from A_v8 (W0 m ρ c), show W1 m ρ c (Proc.devRef .tc main_v13) = _ from A_v13 (W0 m ρ c),
    show W1 m ρ c (Proc.devRef .tc main_v14) = _ from A_v14 (W0 m ρ c), show W1 m ρ c (Proc.devRef .tc main_cst_2) = _ from A_cst2 (W0 m ρ c)]
  rfl

/-! ## Region 0: the first dense layer -/

theorem w4_v33 : W4 m ρ c (Proc.devRef .tc main_v33) = H0 := by
  refine (W4_arr m ρ c 3).trans ((Cert.KernelIdeal.Region0.final (V3 m ρ) A4 c (w3_v32 m ρ c)).trans ?_)
  show Cert.Stages.dense0 (W3 m ρ c (Proc.devRef .tc main_arg0)) (W3 m ρ c (Proc.devRef .tc main_arg3)) A4 = _
  rw [w3_arg0, w3_arg3]
theorem w4_arg5 : W4 m ρ c (Proc.devRef .tc main_arg5) = A5 := (W4_of_ne m ρ c main_arg5 (by decide)).trans (w3_arg5 m ρ c)
theorem w4_v3 : W4 m ρ c (Proc.devRef .tc main_v3) = SRC := (W4_of_ne m ρ c main_v3 (by decide)).trans (w3_v3 m ρ c)
theorem w4_v6 : W4 m ρ c (Proc.devRef .tc main_v6) = DST := (W4_of_ne m ρ c main_v6 (by decide)).trans (w3_v6 m ρ c)
theorem w4_v31 : W4 m ρ c (Proc.devRef .tc main_v31) = NRM := (W4_of_ne m ρ c main_v31 (by decide)).trans (w3_v31 m ρ c)
theorem w4_arg6 : W4 m ρ c (Proc.devRef .tc main_arg6) = A6 := (W4_of_ne m ρ c main_arg6 (by decide)).trans (w3_arg6 m ρ c)
theorem w4_arg7 : W4 m ρ c (Proc.devRef .tc main_arg7) = A7 := (W4_of_ne m ρ c main_arg7 (by decide)).trans (w3_arg7 m ρ c)
theorem w4_arg8 : W4 m ρ c (Proc.devRef .tc main_arg8) = A8 := (W4_of_ne m ρ c main_arg8 (by decide)).trans (w3_arg8 m ρ c)
theorem w4_arg9 : W4 m ρ c (Proc.devRef .tc main_arg9) = A9 := (W4_of_ne m ρ c main_arg9 (by decide)).trans (w3_arg9 m ρ c)
theorem w4_arg10 : W4 m ρ c (Proc.devRef .tc main_arg10) = A10 := (W4_of_ne m ρ c main_arg10 (by decide)).trans (w3_arg10 m ρ c)

/-! ## Region 1: the product with the first square weight table -/

theorem w5_v34 : W5 m ρ c (Proc.devRef .tc main_v34) = H0W := by
  refine (W5_arr m ρ c 2).trans ((Cert.KernelIdeal.Region1.final (V4 m ρ) c).trans ?_)
  show Cert.Stages.mm64 (W4 m ρ c (Proc.devRef .tc main_v33)) (W4 m ρ c (Proc.devRef .tc main_arg5)) = _
  rw [w4_v33, w4_arg5]
theorem w5_v3 : W5 m ρ c (Proc.devRef .tc main_v3) = SRC := (W5_of_ne m ρ c main_v3 (by decide)).trans (w4_v3 m ρ c)
theorem w5_v6 : W5 m ρ c (Proc.devRef .tc main_v6) = DST := (W5_of_ne m ρ c main_v6 (by decide)).trans (w4_v6 m ρ c)
theorem w5_v31 : W5 m ρ c (Proc.devRef .tc main_v31) = NRM := (W5_of_ne m ρ c main_v31 (by decide)).trans (w4_v31 m ρ c)
theorem w5_arg6 : W5 m ρ c (Proc.devRef .tc main_arg6) = A6 := (W5_of_ne m ρ c main_arg6 (by decide)).trans (w4_arg6 m ρ c)
theorem w5_arg7 : W5 m ρ c (Proc.devRef .tc main_arg7) = A7 := (W5_of_ne m ρ c main_arg7 (by decide)).trans (w4_arg7 m ρ c)
theorem w5_arg8 : W5 m ρ c (Proc.devRef .tc main_arg8) = A8 := (W5_of_ne m ρ c main_arg8 (by decide)).trans (w4_arg8 m ρ c)
theorem w5_arg9 : W5 m ρ c (Proc.devRef .tc main_arg9) = A9 := (W5_of_ne m ρ c main_arg9 (by decide)).trans (w4_arg9 m ρ c)
theorem w5_arg10 : W5 m ρ c (Proc.devRef .tc main_arg10) = A10 := (W5_of_ne m ρ c main_arg10 (by decide)).trans (w4_arg10 m ρ c)

/-! ## The first propagation step, and the second bias as one row -/

theorem w6_v47 : W6 m ρ c (Proc.devRef .tc main_v47) = Cert.Stages.agg H0W SRC DST NRM := by
  show after hostOps2 (W5 m ρ c) _ = _
  rw [H2_v47, w5_v34, w5_v3, w5_v6, w5_v31]
theorem w6_v48 (q : Fin 64) : W6 m ρ c (Proc.devRef .tc main_v48) (ix2 (0 : Fin 1) q) = A6 (ix1 q) := by
  show after hostOps2 (W5 m ρ c) _ _ = _
  rw [H2_v48, w5_arg6]
theorem w6_arg7 : W6 m ρ c (Proc.devRef .tc main_arg7) = A7 :=
  (show after hostOps2 (W5 m ρ c) (Proc.devRef .tc main_arg7) = W5 m ρ c (Proc.devRef .tc main_arg7) by host_read).trans (w5_arg7 m ρ c)
theorem w6_v3 : W6 m ρ c (Proc.devRef .tc main_v3) = SRC :=
  (show after hostOps2 (W5 m ρ c) (Proc.devRef .tc main_v3) = W5 m ρ c (Proc.devRef .tc main_v3) by host_read).trans (w5_v3 m ρ c)
theorem w6_v6 : W6 m ρ c (Proc.devRef .tc main_v6) = DST :=
  (show after hostOps2 (W5 m ρ c) (Proc.devRef .tc main_v6) = W5 m ρ c (Proc.devRef .tc main_v6) by host_read).trans (w5_v6 m ρ c)
theorem w6_v31 : W6 m ρ c (Proc.devRef .tc main_v31) = NRM :=
  (show after hostOps2 (W5 m ρ c) (Proc.devRef .tc main_v31) = W5 m ρ c (Proc.devRef .tc main_v31) by host_read).trans (w5_v31 m ρ c)
theorem w6_arg8 : W6 m ρ c (Proc.devRef .tc main_arg8) = A8 :=
  (show after hostOps2 (W5 m ρ c) (Proc.devRef .tc main_arg8) = W5 m ρ c (Proc.devRef .tc main_arg8) by host_read).trans (w5_arg8 m ρ c)
theorem w6_arg9 : W6 m ρ c (Proc.devRef .tc main_arg9) = A9 :=
  (show after hostOps2 (W5 m ρ c) (Proc.devRef .tc main_arg9) = W5 m ρ c (Proc.devRef .tc main_arg9) by host_read).trans (w5_arg9 m ρ c)
theorem w6_arg10 : W6 m ρ c (Proc.devRef .tc main_arg10) = A10 :=
  (show after hostOps2 (W5 m ρ c) (Proc.devRef .tc main_arg10) = W5 m ρ c (Proc.devRef .tc main_arg10) by host_read).trans (w5_arg10 m ρ c)

/-! ## Region 2: that bias and the rectifier -/

theorem w7_v49 : W7 m ρ c (Proc.devRef .tc main_v49) = H1 := by
  refine (W7_arr m ρ c 2).trans ((Cert.KernelIdeal.Region2.final (V6 m ρ) A6 c (w6_v48 m ρ c)).trans ?_)
  show Cert.Stages.biasAct (W6 m ρ c (Proc.devRef .tc main_v47)) A6 = _
  rw [w6_v47]
theorem w7_arg7 : W7 m ρ c (Proc.devRef .tc main_arg7) = A7 := (W7_of_ne m ρ c main_arg7 (by decide)).trans (w6_arg7 m ρ c)
theorem w7_v3 : W7 m ρ c (Proc.devRef .tc main_v3) = SRC := (W7_of_ne m ρ c main_v3 (by decide)).trans (w6_v3 m ρ c)
theorem w7_v6 : W7 m ρ c (Proc.devRef .tc main_v6) = DST := (W7_of_ne m ρ c main_v6 (by decide)).trans (w6_v6 m ρ c)
theorem w7_v31 : W7 m ρ c (Proc.devRef .tc main_v31) = NRM := (W7_of_ne m ρ c main_v31 (by decide)).trans (w6_v31 m ρ c)
theorem w7_arg8 : W7 m ρ c (Proc.devRef .tc main_arg8) = A8 := (W7_of_ne m ρ c main_arg8 (by decide)).trans (w6_arg8 m ρ c)
theorem w7_arg9 : W7 m ρ c (Proc.devRef .tc main_arg9) = A9 := (W7_of_ne m ρ c main_arg9 (by decide)).trans (w6_arg9 m ρ c)
theorem w7_arg10 : W7 m ρ c (Proc.devRef .tc main_arg10) = A10 := (W7_of_ne m ρ c main_arg10 (by decide)).trans (w6_arg10 m ρ c)

/-! ## Region 3: the product with the second square weight table -/

theorem w8_v50 : W8 m ρ c (Proc.devRef .tc main_v50) = H1W := by
  refine (W8_arr m ρ c 2).trans ((Cert.KernelIdeal.Region3.final (V7 m ρ) c).trans ?_)
  show Cert.Stages.mm64 (W7 m ρ c (Proc.devRef .tc main_v49)) (W7 m ρ c (Proc.devRef .tc main_arg7)) = _
  rw [w7_v49, w7_arg7]
theorem w8_v3 : W8 m ρ c (Proc.devRef .tc main_v3) = SRC := (W8_of_ne m ρ c main_v3 (by decide)).trans (w7_v3 m ρ c)
theorem w8_v6 : W8 m ρ c (Proc.devRef .tc main_v6) = DST := (W8_of_ne m ρ c main_v6 (by decide)).trans (w7_v6 m ρ c)
theorem w8_v31 : W8 m ρ c (Proc.devRef .tc main_v31) = NRM := (W8_of_ne m ρ c main_v31 (by decide)).trans (w7_v31 m ρ c)
theorem w8_arg8 : W8 m ρ c (Proc.devRef .tc main_arg8) = A8 := (W8_of_ne m ρ c main_arg8 (by decide)).trans (w7_arg8 m ρ c)
theorem w8_arg9 : W8 m ρ c (Proc.devRef .tc main_arg9) = A9 := (W8_of_ne m ρ c main_arg9 (by decide)).trans (w7_arg9 m ρ c)
theorem w8_arg10 : W8 m ρ c (Proc.devRef .tc main_arg10) = A10 := (W8_of_ne m ρ c main_arg10 (by decide)).trans (w7_arg10 m ρ c)

/-! ## The second propagation step, and the third bias as one row -/

theorem w9_v63 : W9 m ρ c (Proc.devRef .tc main_v63) = Cert.Stages.agg H1W SRC DST NRM := by
  show after hostOps4 (W8 m ρ c) _ = _
  rw [H4_v63, w8_v50, w8_v3, w8_v6, w8_v31]
theorem w9_v64 (q : Fin 64) : W9 m ρ c (Proc.devRef .tc main_v64) (ix2 (0 : Fin 1) q) = A8 (ix1 q) := by
  show after hostOps4 (W8 m ρ c) _ _ = _
  rw [H4_v64, w8_arg8]
theorem w9_arg9 : W9 m ρ c (Proc.devRef .tc main_arg9) = A9 :=
  (show after hostOps4 (W8 m ρ c) (Proc.devRef .tc main_arg9) = W8 m ρ c (Proc.devRef .tc main_arg9) by host_read).trans (w8_arg9 m ρ c)
theorem w9_arg10 : W9 m ρ c (Proc.devRef .tc main_arg10) = A10 :=
  (show after hostOps4 (W8 m ρ c) (Proc.devRef .tc main_arg10) = W8 m ρ c (Proc.devRef .tc main_arg10) by host_read).trans (w8_arg10 m ρ c)

/-! ## Region 4: that bias and the rectifier -/

theorem w10_v65 : W10 m ρ c (Proc.devRef .tc main_v65) = H2 := by
  refine (W10_arr m ρ c 2).trans ((Cert.KernelIdeal.Region4.final (V9 m ρ) A8 c (w9_v64 m ρ c)).trans ?_)
  show Cert.Stages.biasAct (W9 m ρ c (Proc.devRef .tc main_v63)) A8 = _
  rw [w9_v63]
theorem w10_arg9 : W10 m ρ c (Proc.devRef .tc main_arg9) = A9 := (W10_of_ne m ρ c main_arg9 (by decide)).trans (w9_arg9 m ρ c)
theorem w10_arg10 : W10 m ρ c (Proc.devRef .tc main_arg10) = A10 := (W10_of_ne m ρ c main_arg10 (by decide)).trans (w9_arg10 m ρ c)

/-! ## The last bias as one row -/

theorem w11_v65 : W11 m ρ c (Proc.devRef .tc main_v65) = H2 :=
  (show after hostOps5 (W10 m ρ c) (Proc.devRef .tc main_v65) = W10 m ρ c (Proc.devRef .tc main_v65) by host_read).trans (w10_v65 m ρ c)
theorem w11_v66 (q : Fin 40) : W11 m ρ c (Proc.devRef .tc main_v66) (ix2 (0 : Fin 1) q) = A10 (ix1 q) := by
  show after hostOps5 (W10 m ρ c) _ _ = _
  rw [H5_v66, w10_arg10]
theorem w11_arg9 : W11 m ρ c (Proc.devRef .tc main_arg9) = A9 :=
  (show after hostOps5 (W10 m ρ c) (Proc.devRef .tc main_arg9) = W10 m ρ c (Proc.devRef .tc main_arg9) by host_read).trans (w10_arg9 m ρ c)

/-! ## Region 5: the last layer -/

/-- The result table at the return is the whole network of the argument tables as launched. -/
theorem value : W12 m ρ c (Proc.devRef .tc main_v67)
    = Cert.Stages.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (W12_arr m ρ c 3).trans ((Cert.KernelIdeal.Region5.final (V11 m ρ) A10 c (w11_v66 m ρ c)).trans ?_)
  show Cert.Stages.dense5 (W11 m ρ c (Proc.devRef .tc main_v65)) (W11 m ρ c (Proc.devRef .tc main_arg9)) A10 = _
  rw [w11_v65, w11_arg9]
  rfl

end Cert.KernelIdeal.Chain

end
-- ==== Proof.RefOps.lean ====
/- The reference program's operations as one list: @main's statements in program order, each call of a
   module-local function replaced, where the call stands, by that function's statements over the call's own
   record of buffers (a call nested in it likewise, over the nested record). 129 operations. -/
import proofs.«161979_j73323681677856_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 129 operations, in order, the calls' bodies in place of the calls. -/
abbrev ops : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    -- the body of @where over main_call0
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v14 : StableHlo.TRef sig ⟨S100000, .f32⟩) main_call0.v1 main_call0.v2 select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v8 main_v23 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v34 main_v35 (addf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3C23D70A#32),
    -- the body of @leaky_relu over main_call1
    StableHlo.TRef.nullary main_call1.cst (constant S_ .f32 0x00000000#32),
    StableHlo.TRef.unary main_call1.cst main_call1.v0 (broadcastInDim S100000x64 ![] bcast_S_S100000x64),
    StableHlo.TRef.binary (.of main_v35 : StableHlo.TRef sig ⟨S100000x64, .f32⟩) main_call1.v0 main_call1.v1 (cmpf .oge),
    StableHlo.TRef.unary (.of main_cst_6 : StableHlo.TRef sig ⟨S_, .f32⟩) main_call1.v2 id,
    StableHlo.TRef.unary main_call1.v2 main_call1.v3 (broadcastInDim S100000x64 ![] bcast_S_S100000x64),
    StableHlo.TRef.binary main_call1.v3 (.of main_v35 : StableHlo.TRef sig ⟨S100000x64, .f32⟩) main_call1.v4 mulf,
    -- the body of @where_0 over main_call1.call0
    StableHlo.TRef.ternary main_call1.v1 (.of main_v35 : StableHlo.TRef sig ⟨S100000x64, .f32⟩) main_call1.v4 main_call1.call0.v0 select,
    StableHlo.binary main_v36 main_arg5 main_v37 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v31 main_v38 (broadcastInDim S1700000x1 ![0] bcast_S1700000_S1700000x1_0 : (⟨S1700000, .f32⟩ : BufTy).Contents (Elt F) → (⟨S1700000x1, .f32⟩ : BufTy).Contents (Elt F)),
    StableHlo.nullary main_c_7 (constantI S_ 32 0#32),
    StableHlo.unary main_c_7 main_v39 (broadcastInDim S1700000 ![] bcast_S_S1700000 : (⟨S_, .i32⟩ : BufTy).Contents (Elt F) → (⟨S1700000, .i32⟩ : BufTy).Contents (Elt F)),
    StableHlo.binary main_v3 main_v39 main_v40 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v41 (broadcastInDim S1700000 ![] bcast_S_S1700000 : (⟨S_, .i32⟩ : BufTy).Contents (Elt F) → (⟨S1700000, .i32⟩ : BufTy).Contents (Elt F)),
    StableHlo.binary main_v3 main_v41 main_v42 (addi : (⟨S1700000, .i32⟩ : BufTy).Contents (Elt F) → (⟨S1700000, .i32⟩ : BufTy).Contents (Elt F) → (⟨S1700000, .i32⟩ : BufTy).Contents (Elt F)),
    StableHlo.ternary main_v40 main_v42 main_v3 main_v43 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v43 main_v44 (broadcastInDim S1700000x1 ![0] bcast_S1700000_S1700000x1_0 : (⟨S1700000, .i32⟩ : BufTy).Contents (Elt F) → (⟨S1700000x1, .i32⟩ : BufTy).Contents (Elt F)),
    StableHlo.binary main_v37 main_v44 main_v45 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v38 main_v46 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v46 main_v45 main_v47 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v48 (broadcastInDim S100000x64 ![] bcast_S_S100000x64 : (⟨S_, .f32⟩ : BufTy).Contents (Elt F) → (⟨S100000x64, .f32⟩ : BufTy).Contents (Elt F)),
    StableHlo.unary main_v6 main_v49 (broadcastInDim S1700000x1 ![0] bcast_S1700000_S1700000x1_0 : (⟨S1700000, .i32⟩ : BufTy).Contents (Elt F) → (⟨S1700000x1, .i32⟩ : BufTy).Contents (Elt F)),
    StableHlo.ternary main_v48 main_v49 main_v47 main_v50 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg6 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v52 main_v53 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3C23D70A#32),
    -- the body of @leaky_relu over main_call2
    StableHlo.TRef.nullary main_call2.cst (constant S_ .f32 0x00000000#32),
    StableHlo.TRef.unary main_call2.cst main_call2.v0 (broadcastInDim S100000x64 ![] bcast_S_S100000x64),
    StableHlo.TRef.binary (.of main_v53 : StableHlo.TRef sig ⟨S100000x64, .f32⟩) main_call2.v0 main_call2.v1 (cmpf .oge),
    StableHlo.TRef.unary (.of main_cst_10 : StableHlo.TRef sig ⟨S_, .f32⟩) main_call2.v2 id,
    StableHlo.TRef.unary main_call2.v2 main_call2.v3 (broadcastInDim S100000x64 ![] bcast_S_S100000x64),
    StableHlo.TRef.binary main_call2.v3 (.of main_v53 : StableHlo.TRef sig ⟨S100000x64, .f32⟩) main_call2.v4 mulf,
    -- the body of @where_0 over main_call2.call0
    StableHlo.TRef.ternary main_call2.v1 (.of main_v53 : StableHlo.TRef sig ⟨S100000x64, .f32⟩) main_call2.v4 main_call2.call0.v0 select,
    StableHlo.binary main_v54 main_arg7 main_v55 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v31 main_v56 (broadcastInDim S1700000x1 ![0] bcast_S1700000_S1700000x1_0 : (⟨S1700000, .f32⟩ : BufTy).Contents (Elt F) → (⟨S1700000x1, .f32⟩ : BufTy).Contents (Elt F)),
    StableHlo.nullary main_c_11 (constantI S_ 32 0#32),
    StableHlo.unary main_c_11 main_v57 (broadcastInDim S1700000 ![] bcast_S_S1700000 : (⟨S_, .i32⟩ : BufTy).Contents (Elt F) → (⟨S1700000, .i32⟩ : BufTy).Contents (Elt F)),
    StableHlo.binary main_v3 main_v57 main_v58 (cmpi .slt : (⟨S1700000, .i32⟩ : BufTy).Contents (Elt F) → (⟨S1700000, .i32⟩ : BufTy).Contents (Elt F) → (⟨S1700000, .i1⟩ : BufTy).Contents (Elt F)),
    StableHlo.nullary main_c_12 (constantI S_ 32 100000#32),
    StableHlo.unary main_c_12 main_v59 (broadcastInDim S1700000 ![] bcast_S_S1700000 : (⟨S_, .i32⟩ : BufTy).Contents (Elt F) → (⟨S1700000, .i32⟩ : BufTy).Contents (Elt F)),
    StableHlo.binary main_v3 main_v59 main_v60 (addi : (⟨S1700000, .i32⟩ : BufTy).Contents (Elt F) → (⟨S1700000, .i32⟩ : BufTy).Contents (Elt F) → (⟨S1700000, .i32⟩ : BufTy).Contents (Elt F)),
    StableHlo.ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v61 main_v62 (broadcastInDim S1700000x1 ![0] bcast_S1700000_S1700000x1_0 : (⟨S1700000, .i32⟩ : BufTy).Contents (Elt F) → (⟨S1700000x1, .i32⟩ : BufTy).Contents (Elt F)),
    StableHlo.binary main_v55 main_v62 main_v63 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v56 main_v64 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v64 main_v63 main_v65 (mulf : (⟨S1700000x64, .f32⟩ : BufTy).Contents (Elt F) → (⟨S1700000x64, .f32⟩ : BufTy).Contents (Elt F) → (⟨S1700000x64, .f32⟩ : BufTy).Contents (Elt F)),
    StableHlo.nullary main_cst_13 (constant S_ .f32 0x00000000#32),
    StableHlo.unary main_cst_13 main_v66 (broadcastInDim S100000x64 ![] bcast_S_S100000x64 : (⟨S_, .f32⟩ : BufTy).Contents (Elt F) → (⟨S100000x64, .f32⟩ : BufTy).Contents (Elt F)),
    StableHlo.unary main_v6 main_v67 (broadcastInDim S1700000x1 ![0] bcast_S1700000_S1700000x1_0 : (⟨S1700000, .i32⟩ : BufTy).Contents (Elt F) → (⟨S1700000x1, .i32⟩ : BufTy).Contents (Elt F)),
    StableHlo.ternary main_v66 main_v67 main_v65 main_v68 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg8 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3C23D70A#32),
    -- the body of @leaky_relu over main_call3
    StableHlo.TRef.nullary main_call3.cst (constant S_ .f32 0x00000000#32),
    StableHlo.TRef.unary main_call3.cst main_call3.v0 (broadcastInDim S100000x64 ![] bcast_S_S100000x64),
    StableHlo.TRef.binary (.of main_v71 : StableHlo.TRef sig ⟨S100000x64, .f32⟩) main_call3.v0 main_call3.v1 (cmpf .oge),
    StableHlo.TRef.unary (.of main_cst_14 : StableHlo.TRef sig ⟨S_, .f32⟩) main_call3.v2 id,
    StableHlo.TRef.unary main_call3.v2 main_call3.v3 (broadcastInDim S100000x64 ![] bcast_S_S100000x64),
    StableHlo.TRef.binary main_call3.v3 (.of main_v71 : StableHlo.TRef sig ⟨S100000x64, .f32⟩) main_call3.v4 mulf,
    -- the body of @where_0 over main_call3.call0
    StableHlo.TRef.ternary main_call3.v1 (.of main_v71 : StableHlo.TRef sig ⟨S100000x64, .f32⟩) main_call3.v4 main_call3.call0.v0 select,
    StableHlo.binary main_v72 main_arg9 main_v73 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg10 main_v74 (broadcastInDim S1x40 ![1] bcast_S40_S1x40_1 : (⟨S40, .f32⟩ : BufTy).Contents (Elt F) → (⟨S1x40, .f32⟩ : BufTy).Contents (Elt F)),
    StableHlo.unary main_v74 main_v75 (broadcastInDim S100000x40 ![0, 1] bcast_S1x40_S100000x40_0_1 : (⟨S1x40, .f32⟩ : BufTy).Contents (Elt F) → (⟨S100000x40, .f32⟩ : BufTy).Contents (Elt F)),
    StableHlo.binary main_v73 main_v75 main_v76 (addf : (⟨S100000x40, .f32⟩ : BufTy).Contents (Elt F) → (⟨S100000x40, .f32⟩ : BufTy).Contents (Elt F) → (⟨S100000x40, .f32⟩ : BufTy).Contents (Elt F)),
    -- the body of @log_softmax over main_call4
    StableHlo.TRef.nullary main_call4.cst (constant S_ .f32 0xFF800000#32),
    StableHlo.TRef.binary (.of main_v76 : StableHlo.TRef sig ⟨S100000x40, .f32⟩) main_call4.cst main_call4.v0 (fun x v => Host.reduce FloatOps.maximumf x v reducesTo_S100000x40_S100000_d1 h_S_),
    StableHlo.TRef.nullary main_call4.cst_0 (constant S_ .f32 0xFF800000#32),
    StableHlo.TRef.unary main_call4.cst_0 main_call4.v1 (broadcastInDim S100000 ![] bcast_S_S100000),
    StableHlo.TRef.binary main_call4.v1 main_call4.v0 main_call4.v2 maximumf,
    StableHlo.TRef.unary main_call4.v2 main_call4.v3 (broadcastInDim S100000x1 ![0] bcast_S100000_S100000x1_0),
    StableHlo.TRef.unary main_call4.v3 main_call4.v4 (broadcastInDim S100000x40 ![0, 1] bcast_S100000x1_S100000x40_0_1),
    StableHlo.TRef.binary (.of main_v76 : StableHlo.TRef sig ⟨S100000x40, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S100000x40_S100000_d1 h_S_),
    StableHlo.TRef.unary main_call4.v7 main_call4.v8 (broadcastInDim S100000x1 ![0] bcast_S100000_S100000x1_0),
    StableHlo.TRef.unary main_call4.v8 main_call4.v9 Host.log,
    StableHlo.TRef.unary main_call4.v9 main_call4.v10 (broadcastInDim S100000x40 ![0, 1] bcast_S100000x1_S100000x40_0_1),
    StableHlo.TRef.binary main_call4.v5 main_call4.v10 main_call4.v11 subf ]

end Cert.ReferenceIdeal.HandRun

end
-- ==== Proof.RefRun.lean ====
/- The reference program's run, read back from its operation list: @main IS the straight line of those operations
   (the two windows in order, each call's body where the call stands), the signature scopes no buffer and no
   semaphore, every operation touches TensorCore references only; hence every weakly fair execution of @main
   terminates with each buffer at the fold of the operations' results over the launch contents. No operation
   writes an argument's buffer: the fold leaves the eleven arguments as they were. -/
import proofs.«161979_j73323681677856_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- one step of the chain per operation on either side: the unfolding is as deep as the list is long
set_option maxRecDepth 8192 in
set_option maxHeartbeats 4000000 in
/-- @main is the straight line of its operations: the windows and the functions' definitions unfold at their
    calls, the records at their fields, and both sides are one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only: the conjunction over the list, one conjunct per
    operation, each the fact of its builder (an operation of a function's body is the same builder at the
    record's references). -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

/-- On the one device, for any float values, from any memory with zero counters: every weakly fair execution of
    @main on the TensorCore terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Closes "no operation of the list writes this buffer": the conjunction over the list, one conjunct per
    operation ("the buffer it writes is not this one"), each an inequality of two literal references. -/
local macro "not_written" : tactic =>
  `(tactic| (
    refine List.forall_iff_forall_mem.mp ?_
    simp only [List.Forall, nullary_writes, unary_writes, binary_writes, ternary_writes, reshape_writes, Finset.mem_singleton]
    repeat' apply And.intro
    all_goals exact devRef_ne_of_ne (by decide)))

/-! The arguments' buffers are written by no operation: the fold leaves them as they were. -/

set_option maxRecDepth 8192 in
theorem arg0_eq (V : Valuation τ sig (Elt F)) : after ops V (main_arg0 : DevRef τ sig) = V (main_arg0 : DevRef τ sig) :=
  after_of_forall_not_mem (b := Proc.devRef .tc main_arg0) ops V (by not_written)

set_option maxRecDepth 8192 in
theorem arg1_eq (V : Valuation τ sig (Elt F)) : after ops V (main_arg1 : DevRef τ sig) = V (main_arg1 : DevRef τ sig) :=
  after_of_forall_not_mem (b := Proc.devRef .tc main_arg1) ops V (by not_written)

set_option maxRecDepth 8192 in
theorem arg2_eq (V : Valuation τ sig (Elt F)) : after ops V (main_arg2 : DevRef τ sig) = V (main_arg2 : DevRef τ sig) :=
  after_of_forall_not_mem (b := Proc.devRef .tc main_arg2) ops V (by not_written)

set_option maxRecDepth 8192 in
theorem arg3_eq (V : Valuation τ sig (Elt F)) : after ops V (main_arg3 : DevRef τ sig) = V (main_arg3 : DevRef τ sig) :=
  after_of_forall_not_mem (b := Proc.devRef .tc main_arg3) ops V (by not_written)

set_option maxRecDepth 8192 in
theorem arg4_eq (V : Valuation τ sig (Elt F)) : after ops V (main_arg4 : DevRef τ sig) = V (main_arg4 : DevRef τ sig) :=
  after_of_forall_not_mem (b := Proc.devRef .tc main_arg4) ops V (by not_written)

set_option maxRecDepth 8192 in
theorem arg5_eq (V : Valuation τ sig (Elt F)) : after ops V (main_arg5 : DevRef τ sig) = V (main_arg5 : DevRef τ sig) :=
  after_of_forall_not_mem (b := Proc.devRef .tc main_arg5) ops V (by not_written)

set_option maxRecDepth 8192 in
theorem arg6_eq (V : Valuation τ sig (Elt F)) : after ops V (main_arg6 : DevRef τ sig) = V (main_arg6 : DevRef τ sig) :=
  after_of_forall_not_mem (b := Proc.devRef .tc main_arg6) ops V (by not_written)

set_option maxRecDepth 8192 in
theorem arg7_eq (V : Valuation τ sig (Elt F)) : after ops V (main_arg7 : DevRef τ sig) = V (main_arg7 : DevRef τ sig) :=
  after_of_forall_not_mem (b := Proc.devRef .tc main_arg7) ops V (by not_written)

set_option maxRecDepth 8192 in
theorem arg8_eq (V : Valuation τ sig (Elt F)) : after ops V (main_arg8 : DevRef τ sig) = V (main_arg8 : DevRef τ sig) :=
  after_of_forall_not_mem (b := Proc.devRef .tc main_arg8) ops V (by not_written)

set_option maxRecDepth 8192 in
theorem arg9_eq (V : Valuation τ sig (Elt F)) : after ops V (main_arg9 : DevRef τ sig) = V (main_arg9 : DevRef τ sig) :=
  after_of_forall_not_mem (b := Proc.devRef .tc main_arg9) ops V (by not_written)

set_option maxRecDepth 8192 in
theorem arg10_eq (V : Valuation τ sig (Elt F)) : after ops V (main_arg10 : DevRef τ sig) = V (main_arg10 : DevRef τ sig) :=
  after_of_forall_not_mem (b := Proc.devRef .tc main_arg10) ops V (by not_written)

end Cert.ReferenceIdeal.HandRun

end
-- ==== Proof.RefWin.lean ====
/- The reference program's 129 operations (the list 'ops', in program order, each call's body in place of the
   call) cut into 8 consecutive lists: operations 1 … 10, 11 … 22, 23 … 42, 43 … 54, 55 … 82, 83 … 110, 111 … 114, 115 … 129. -/
import proofs.«161979_j73323681677856_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 10 of 129. -/
abbrev opsA : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]

/-- Operations 11 … 22 of 129. -/
abbrev opsB : List (HloOp τ sig (Elt F)) :=
  [ StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    -- the body of @where over main_call0
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v14 : StableHlo.TRef sig ⟨S100000, .f32⟩) main_call0.v1 main_call0.v2 select ]

/-- Operations 23 … 42 of 129. -/
abbrev opsC : List (HloOp τ sig (Elt F)) :=
  [ StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v8 main_v23 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)) ]

/-- Operations 43 … 54 of 129. -/
abbrev opsD : List (HloOp τ sig (Elt F)) :=
  [ StableHlo.binary main_arg0 main_arg3 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v34 main_v35 (addf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3C23D70A#32),
    -- the body of @leaky_relu over main_call1
    StableHlo.TRef.nullary main_call1.cst (constant S_ .f32 0x00000000#32),
    StableHlo.TRef.unary main_call1.cst main_call1.v0 (broadcastInDim S100000x64 ![] bcast_S_S100000x64),
    StableHlo.TRef.binary (.of main_v35 : StableHlo.TRef sig ⟨S100000x64, .f32⟩) main_call1.v0 main_call1.v1 (cmpf .oge),
    StableHlo.TRef.unary (.of main_cst_6 : StableHlo.TRef sig ⟨S_, .f32⟩) main_call1.v2 id,
    StableHlo.TRef.unary main_call1.v2 main_call1.v3 (broadcastInDim S100000x64 ![] bcast_S_S100000x64),
    StableHlo.TRef.binary main_call1.v3 (.of main_v35 : StableHlo.TRef sig ⟨S100000x64, .f32⟩) main_call1.v4 mulf,
    -- the body of @where_0 over main_call1.call0
    StableHlo.TRef.ternary main_call1.v1 (.of main_v35 : StableHlo.TRef sig ⟨S100000x64, .f32⟩) main_call1.v4 main_call1.call0.v0 select ]

/-- Operations 55 … 82 of 129. -/
abbrev opsE : List (HloOp τ sig (Elt F)) :=
  [ StableHlo.binary main_v36 main_arg5 main_v37 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v31 main_v38 (broadcastInDim S1700000x1 ![0] bcast_S1700000_S1700000x1_0 : (⟨S1700000, .f32⟩ : BufTy).Contents (Elt F) → (⟨S1700000x1, .f32⟩ : BufTy).Contents (Elt F)),
    StableHlo.nullary main_c_7 (constantI S_ 32 0#32),
    StableHlo.unary main_c_7 main_v39 (broadcastInDim S1700000 ![] bcast_S_S1700000 : (⟨S_, .i32⟩ : BufTy).Contents (Elt F) → (⟨S1700000, .i32⟩ : BufTy).Contents (Elt F)),
    StableHlo.binary main_v3 main_v39 main_v40 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v41 (broadcastInDim S1700000 ![] bcast_S_S1700000 : (⟨S_, .i32⟩ : BufTy).Contents (Elt F) → (⟨S1700000, .i32⟩ : BufTy).Contents (Elt F)),
    StableHlo.binary main_v3 main_v41 main_v42 (addi : (⟨S1700000, .i32⟩ : BufTy).Contents (Elt F) → (⟨S1700000, .i32⟩ : BufTy).Contents (Elt F) → (⟨S1700000, .i32⟩ : BufTy).Contents (Elt F)),
    StableHlo.ternary main_v40 main_v42 main_v3 main_v43 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v43 main_v44 (broadcastInDim S1700000x1 ![0] bcast_S1700000_S1700000x1_0 : (⟨S1700000, .i32⟩ : BufTy).Contents (Elt F) → (⟨S1700000x1, .i32⟩ : BufTy).Contents (Elt F)),
    StableHlo.binary main_v37 main_v44 main_v45 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v38 main_v46 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v46 main_v45 main_v47 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v48 (broadcastInDim S100000x64 ![] bcast_S_S100000x64 : (⟨S_, .f32⟩ : BufTy).Contents (Elt F) → (⟨S100000x64, .f32⟩ : BufTy).Contents (Elt F)),
    StableHlo.unary main_v6 main_v49 (broadcastInDim S1700000x1 ![0] bcast_S1700000_S1700000x1_0 : (⟨S1700000, .i32⟩ : BufTy).Contents (Elt F) → (⟨S1700000x1, .i32⟩ : BufTy).Contents (Elt F)),
    StableHlo.ternary main_v48 main_v49 main_v47 main_v50 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg6 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v52 main_v53 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3C23D70A#32),
    -- the body of @leaky_relu over main_call2
    StableHlo.TRef.nullary main_call2.cst (constant S_ .f32 0x00000000#32),
    StableHlo.TRef.unary main_call2.cst main_call2.v0 (broadcastInDim S100000x64 ![] bcast_S_S100000x64),
    StableHlo.TRef.binary (.of main_v53 : StableHlo.TRef sig ⟨S100000x64, .f32⟩) main_call2.v0 main_call2.v1 (cmpf .oge),
    StableHlo.TRef.unary (.of main_cst_10 : StableHlo.TRef sig ⟨S_, .f32⟩) main_call2.v2 id,
    StableHlo.TRef.unary main_call2.v2 main_call2.v3 (broadcastInDim S100000x64 ![] bcast_S_S100000x64),
    StableHlo.TRef.binary main_call2.v3 (.of main_v53 : StableHlo.TRef sig ⟨S100000x64, .f32⟩) main_call2.v4 mulf,
    -- the body of @where_0 over main_call2.call0
    StableHlo.TRef.ternary main_call2.v1 (.of main_v53 : StableHlo.TRef sig ⟨S100000x64, .f32⟩) main_call2.v4 main_call2.call0.v0 select ]

/-- Operations 83 … 110 of 129. -/
abbrev opsF : List (HloOp τ sig (Elt F)) :=
  [ StableHlo.binary main_v54 main_arg7 main_v55 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v31 main_v56 (broadcastInDim S1700000x1 ![0] bcast_S1700000_S1700000x1_0 : (⟨S1700000, .f32⟩ : BufTy).Contents (Elt F) → (⟨S1700000x1, .f32⟩ : BufTy).Contents (Elt F)),
    StableHlo.nullary main_c_11 (constantI S_ 32 0#32),
    StableHlo.unary main_c_11 main_v57 (broadcastInDim S1700000 ![] bcast_S_S1700000 : (⟨S_, .i32⟩ : BufTy).Contents (Elt F) → (⟨S1700000, .i32⟩ : BufTy).Contents (Elt F)),
    StableHlo.binary main_v3 main_v57 main_v58 (cmpi .slt : (⟨S1700000, .i32⟩ : BufTy).Contents (Elt F) → (⟨S1700000, .i32⟩ : BufTy).Contents (Elt F) → (⟨S1700000, .i1⟩ : BufTy).Contents (Elt F)),
    StableHlo.nullary main_c_12 (constantI S_ 32 100000#32),
    StableHlo.unary main_c_12 main_v59 (broadcastInDim S1700000 ![] bcast_S_S1700000 : (⟨S_, .i32⟩ : BufTy).Contents (Elt F) → (⟨S1700000, .i32⟩ : BufTy).Contents (Elt F)),
    StableHlo.binary main_v3 main_v59 main_v60 (addi : (⟨S1700000, .i32⟩ : BufTy).Contents (Elt F) → (⟨S1700000, .i32⟩ : BufTy).Contents (Elt F) → (⟨S1700000, .i32⟩ : BufTy).Contents (Elt F)),
    StableHlo.ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v61 main_v62 (broadcastInDim S1700000x1 ![0] bcast_S1700000_S1700000x1_0 : (⟨S1700000, .i32⟩ : BufTy).Contents (Elt F) → (⟨S1700000x1, .i32⟩ : BufTy).Contents (Elt F)),
    StableHlo.binary main_v55 main_v62 main_v63 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v56 main_v64 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v64 main_v63 main_v65 (mulf : (⟨S1700000x64, .f32⟩ : BufTy).Contents (Elt F) → (⟨S1700000x64, .f32⟩ : BufTy).Contents (Elt F) → (⟨S1700000x64, .f32⟩ : BufTy).Contents (Elt F)),
    StableHlo.nullary main_cst_13 (constant S_ .f32 0x00000000#32),
    StableHlo.unary main_cst_13 main_v66 (broadcastInDim S100000x64 ![] bcast_S_S100000x64 : (⟨S_, .f32⟩ : BufTy).Contents (Elt F) → (⟨S100000x64, .f32⟩ : BufTy).Contents (Elt F)),
    StableHlo.unary main_v6 main_v67 (broadcastInDim S1700000x1 ![0] bcast_S1700000_S1700000x1_0 : (⟨S1700000, .i32⟩ : BufTy).Contents (Elt F) → (⟨S1700000x1, .i32⟩ : BufTy).Contents (Elt F)),
    StableHlo.ternary main_v66 main_v67 main_v65 main_v68 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg8 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3C23D70A#32),
    -- the body of @leaky_relu over main_call3
    StableHlo.TRef.nullary main_call3.cst (constant S_ .f32 0x00000000#32),
    StableHlo.TRef.unary main_call3.cst main_call3.v0 (broadcastInDim S100000x64 ![] bcast_S_S100000x64),
    StableHlo.TRef.binary (.of main_v71 : StableHlo.TRef sig ⟨S100000x64, .f32⟩) main_call3.v0 main_call3.v1 (cmpf .oge),
    StableHlo.TRef.unary (.of main_cst_14 : StableHlo.TRef sig ⟨S_, .f32⟩) main_call3.v2 id,
    StableHlo.TRef.unary main_call3.v2 main_call3.v3 (broadcastInDim S100000x64 ![] bcast_S_S100000x64),
    StableHlo.TRef.binary main_call3.v3 (.of main_v71 : StableHlo.TRef sig ⟨S100000x64, .f32⟩) main_call3.v4 mulf,
    -- the body of @where_0 over main_call3.call0
    StableHlo.TRef.ternary main_call3.v1 (.of main_v71 : StableHlo.TRef sig ⟨S100000x64, .f32⟩) main_call3.v4 main_call3.call0.v0 select ]

/-- Operations 111 … 114 of 129. -/
abbrev opsG : List (HloOp τ sig (Elt F)) :=
  [ StableHlo.binary main_v72 main_arg9 main_v73 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg10 main_v74 (broadcastInDim S1x40 ![1] bcast_S40_S1x40_1 : (⟨S40, .f32⟩ : BufTy).Contents (Elt F) → (⟨S1x40, .f32⟩ : BufTy).Contents (Elt F)),
    StableHlo.unary main_v74 main_v75 (broadcastInDim S100000x40 ![0, 1] bcast_S1x40_S100000x40_0_1 : (⟨S1x40, .f32⟩ : BufTy).Contents (Elt F) → (⟨S100000x40, .f32⟩ : BufTy).Contents (Elt F)),
    StableHlo.binary main_v73 main_v75 main_v76 (addf : (⟨S100000x40, .f32⟩ : BufTy).Contents (Elt F) → (⟨S100000x40, .f32⟩ : BufTy).Contents (Elt F) → (⟨S100000x40, .f32⟩ : BufTy).Contents (Elt F)) ]

/-- Operations 115 … 129 of 129. -/
abbrev opsH : List (HloOp τ sig (Elt F)) :=
  [
    -- the body of @log_softmax over main_call4
    StableHlo.TRef.nullary main_call4.cst (constant S_ .f32 0xFF800000#32),
    StableHlo.TRef.binary (.of main_v76 : StableHlo.TRef sig ⟨S100000x40, .f32⟩) main_call4.cst main_call4.v0 (fun x v => Host.reduce FloatOps.maximumf x v reducesTo_S100000x40_S100000_d1 h_S_),
    StableHlo.TRef.nullary main_call4.cst_0 (constant S_ .f32 0xFF800000#32),
    StableHlo.TRef.unary main_call4.cst_0 main_call4.v1 (broadcastInDim S100000 ![] bcast_S_S100000),
    StableHlo.TRef.binary main_call4.v1 main_call4.v0 main_call4.v2 maximumf,
    StableHlo.TRef.unary main_call4.v2 main_call4.v3 (broadcastInDim S100000x1 ![0] bcast_S100000_S100000x1_0),
    StableHlo.TRef.unary main_call4.v3 main_call4.v4 (broadcastInDim S100000x40 ![0, 1] bcast_S100000x1_S100000x40_0_1),
    StableHlo.TRef.binary (.of main_v76 : StableHlo.TRef sig ⟨S100000x40, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S100000x40_S100000_d1 h_S_),
    StableHlo.TRef.unary main_call4.v7 main_call4.v8 (broadcastInDim S100000x1 ![0] bcast_S100000_S100000x1_0),
    StableHlo.TRef.unary main_call4.v8 main_call4.v9 Host.log,
    StableHlo.TRef.unary main_call4.v9 main_call4.v10 (broadcastInDim S100000x40 ![0, 1] bcast_S100000x1_S100000x40_0_1),
    StableHlo.TRef.binary main_call4.v5 main_call4.v10 main_call4.v11 subf ]

end Cert.ReferenceIdeal.HandRun

end
-- ==== Proof.RefOut.lean ====
/- The reference program's result as the network's stages. The operation list is cut into eight consecutive
   windows at the points where a value that is read several times is born: the endpoint and weight lists (through
   operation 10), the scaling of the nodes (22), the edge coefficients (42), the first dense layer (54), the two
   propagation layers (82, 110), the last dense layer (114), the log-softmax of its rows (129). Each window, run from ANY contents W,
   leaves its result buffer at one stage of Cert.Stages applied to W at the few buffers the window reads, and leaves
   the buffers it does not write as they were; the fold over the whole list is the fold over the windows in order, and
   composing the eight readings is Cert.Stages.out at the eleven arguments. -/
import proofs.«161979_j73323681677856_1_alg».proof.Proof.RefRun
import proofs.«161979_j73323681677856_1_alg».proof.Proof.RefWin
import proofs.«161979_j73323681677856_1_alg».proof.Proof.Stages
import Idealize.ShloMosaic.Lib.Pipeline.Frame

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Stages (srcOf dstOf weightOf degOf scaleOf normFrom normOf agg mm64 dense0 biasAct dense5)

variable {F : FTy → Type} [FloatOps F]

/-! ## The list is its eight windows in order -/

set_option maxRecDepth 8192 in
theorem ops_split :
    (ops : List (HloOp τ sig (Elt F))) = opsA ++ (opsB ++ (opsC ++ (opsD ++ (opsE ++ (opsF ++ (opsG ++ opsH)))))) := rfl

/-- The fold over the whole list is the fold over the windows, in order. -/
theorem after_ops (V : Valuation τ sig (Elt F)) :
    after ops V = after opsH (after opsG (after opsF (after opsE (after opsD (after opsC (after opsB (after opsA V))))))) := by
  rw [ops_split]
  simp only [StableHlo.after_append]

/-! ## What each window leaves at its result -/

/-- The joining of an edge list with a node list, as a function of the two: the form in which both operands stay
    arguments while the fold is read. -/
private def cat2 {α : Type} (a : S1600000.Idx → α) (b : S100000.Idx → α) : S1700000.Idx → α :=
  concatenate S1700000 0 [⟨S1600000, a⟩, ⟨S100000, b⟩] concatenates_S1600000_S100000_S1700000_d0

private theorem cat_fold {α : Type} (a : S1600000.Idx → α) (b : S100000.Idx → α) (h) :
    concatenate S1700000 0 [⟨S1600000, a⟩, ⟨S100000, b⟩] h = cat2 a b := rfl

/-- Contents moved to a typed reference's buffer and back are what they were (for any typed reference: the two
    transports are along one equation and its converse). -/
private theorem ofBuf_toBuf {T : BufTy} (x : TRef sig T) (v : T.Contents (Elt F)) : x.ofBuf (x.toBuf v) = v := by
  simp only [TRef.ofBuf, TRef.toBuf, cast_cast, cast_eq]

/-- Reads a window's fold at a buffer: the fold unrolled, each operation's result at its own buffer its function's
    value and at any other buffer what was there (the two references told apart by computation); a value a called
    function's line wrote and a later line reads went to its typed reference's buffer and back, which is the
    identity. -/
local macro "read_fold" : tactic =>
  `(tactic| (
    simp (disch := decide) only [after_cons, after_nil, cat_fold,
      nullary_result', unary_result', binary_result', ternary_result', reshape_result',
      nullary_result_ne', unary_result_ne', binary_result_ne', ternary_result_ne', reshape_result_ne']
    try simp only [ofBuf_toBuf]))

set_option maxRecDepth 16384 in
set_option maxHeartbeats 4000000 in
/-- Where every edge and self loop starts. -/
theorem outA_src (W : Valuation τ sig (Elt F)) :
    after opsA W (main_v3 : DevRef τ sig) = srcOf (W (main_arg1 : DevRef τ sig)) := by
  read_fold
  rfl

set_option maxRecDepth 16384 in
set_option maxHeartbeats 4000000 in
/-- Where every edge and self loop ends. -/
theorem outA_dst (W : Valuation τ sig (Elt F)) :
    after opsA W (main_v6 : DevRef τ sig) = dstOf (W (main_arg1 : DevRef τ sig)) := by
  read_fold
  rfl

set_option maxRecDepth 16384 in
set_option maxHeartbeats 4000000 in
/-- The weights, the self loops' included. -/
theorem outA_wt (W : Valuation τ sig (Elt F)) :
    after opsA W (main_v8 : DevRef τ sig) = weightOf (W (main_arg2 : DevRef τ sig)) := by
  read_fold
  rfl

set_option maxRecDepth 16384 in
set_option maxHeartbeats 4000000 in
/-- The nodes' scaling, from the end points and the weights. -/
theorem outB (W : Valuation τ sig (Elt F)) :
    after opsB W (main_v15 : DevRef τ sig) = scaleOf (degOf (W (main_v6 : DevRef τ sig)) (W (main_v8 : DevRef τ sig))) := by
  read_fold
  rfl

set_option maxRecDepth 16384 in
set_option maxHeartbeats 4000000 in
/-- The edges' coefficients, from the scaling, the end points and the weights. -/
theorem outC (W : Valuation τ sig (Elt F)) :
    after opsC W (main_v31 : DevRef τ sig)
      = normFrom (W (main_v15 : DevRef τ sig)) (W (main_v3 : DevRef τ sig)) (W (main_v6 : DevRef τ sig)) (W (main_v8 : DevRef τ sig)) := by
  read_fold
  rfl

set_option maxRecDepth 16384 in
set_option maxHeartbeats 4000000 in
/-- The first dense layer. -/
theorem outD (W : Valuation τ sig (Elt F)) :
    after opsD W (main_v36 : DevRef τ sig)
      = dense0 (W (main_arg0 : DevRef τ sig)) (W (main_arg3 : DevRef τ sig)) (W (main_arg4 : DevRef τ sig)) := by
  read_fold
  rfl

set_option maxRecDepth 16384 in
set_option maxHeartbeats 4000000 in
/-- The first propagation layer. -/
theorem outE (W : Valuation τ sig (Elt F)) :
    after opsE W (main_v54 : DevRef τ sig)
      = biasAct (agg (mm64 (W (main_v36 : DevRef τ sig)) (W (main_arg5 : DevRef τ sig)))
            (W (main_v3 : DevRef τ sig)) (W (main_v6 : DevRef τ sig)) (W (main_v31 : DevRef τ sig))) (W (main_arg6 : DevRef τ sig)) := by
  read_fold
  rfl

set_option maxRecDepth 16384 in
set_option maxHeartbeats 4000000 in
/-- The second propagation layer. -/
theorem outF (W : Valuation τ sig (Elt F)) :
    after opsF W (main_v72 : DevRef τ sig)
      = biasAct (agg (mm64 (W (main_v54 : DevRef τ sig)) (W (main_arg7 : DevRef τ sig)))
            (W (main_v3 : DevRef τ sig)) (W (main_v6 : DevRef τ sig)) (W (main_v31 : DevRef τ sig))) (W (main_arg8 : DevRef τ sig)) := by
  read_fold
  rfl

set_option maxRecDepth 16384 in
set_option maxHeartbeats 4000000 in
/-- The last dense layer: the rows the log-softmax is taken of. -/
theorem outG (W : Valuation τ sig (Elt F)) :
    after opsG W (main_v76 : DevRef τ sig)
      = addf (Host.dotGeneral dot_S100000x64_S64x40_S100000x40_1_0_0_1_n_n none (W (main_v72 : DevRef τ sig)) (W (main_arg9 : DevRef τ sig)))
          (Cert.Stages.bias40 (W (main_arg10 : DevRef τ sig))) := by
  read_fold
  rfl

set_option maxRecDepth 16384 in
set_option maxHeartbeats 4000000 in
/-- The log-softmax of those rows. -/
theorem outH (W : Valuation τ sig (Elt F)) :
    after opsH W (main_v77 : DevRef τ sig) = Cert.Stages.logSoftmax (W (main_v76 : DevRef τ sig)) := by
  read_fold
  rfl

/-! ## What each window leaves alone -/

/-- Closes "no operation of the list writes this buffer": the conjunction over the list, one conjunct per
    operation ("the buffer it writes is not this one"), each an inequality of two literal references. -/
local macro "not_written" : tactic =>
  `(tactic| (
    refine List.forall_iff_forall_mem.mp ?_
    simp only [List.Forall, nullary_writes, unary_writes, binary_writes, ternary_writes, reshape_writes, Finset.mem_singleton]
    repeat' apply And.intro
    all_goals exact devRef_ne_of_ne (by decide)))

set_option maxRecDepth 8192 in
/-- The first window writes none of the tables the later stages read from the arguments. -/
theorem keepA (W : Valuation τ sig (Elt F)) (r : Ref sig .tc)
    (h : r ∈ [main_arg0, main_arg3, main_arg4, main_arg5, main_arg6, main_arg7, main_arg8, main_arg9, main_arg10] := by decide) :
    after opsA W (Proc.devRef .tc r : DevRef τ sig) = W (Proc.devRef .tc r) := by
  simp only [List.mem_cons, List.not_mem_nil, or_false] at h
  rcases h with rfl | rfl | rfl | rfl | rfl | rfl | rfl | rfl | rfl
  all_goals exact after_of_forall_not_mem _ _ (by not_written)

set_option maxRecDepth 8192 in
/-- The second window leaves the end points, the weights and those arguments. -/
theorem keepB (W : Valuation τ sig (Elt F)) (r : Ref sig .tc)
    (h : r ∈ [main_v3, main_v6, main_v8, main_arg0, main_arg3, main_arg4, main_arg5, main_arg6, main_arg7, main_arg8, main_arg9, main_arg10] := by decide) :
    after opsB W (Proc.devRef .tc r : DevRef τ sig) = W (Proc.devRef .tc r) := by
  simp only [List.mem_cons, List.not_mem_nil, or_false] at h
  rcases h with rfl | rfl | rfl | rfl | rfl | rfl | rfl | rfl | rfl | rfl | rfl | rfl
  all_goals exact after_of_forall_not_mem _ _ (by not_written)

set_option maxRecDepth 8192 in
/-- The third window leaves the end points and those arguments. -/
theorem keepC (W : Valuation τ sig (Elt F)) (r : Ref sig .tc)
    (h : r ∈ [main_v3, main_v6, main_arg0, main_arg3, main_arg4, main_arg5, main_arg6, main_arg7, main_arg8, main_arg9, main_arg10] := by decide) :
    after opsC W (Proc.devRef .tc r : DevRef τ sig) = W (Proc.devRef .tc r) := by
  simp only [List.mem_cons, List.not_mem_nil, or_false] at h
  rcases h with rfl | rfl | rfl | rfl | rfl | rfl | rfl | rfl | rfl | rfl | rfl
  all_goals exact after_of_forall_not_mem _ _ (by not_written)

set_option maxRecDepth 8192 in
/-- The fourth window leaves the end points, the coefficients and the later layers' arguments. -/
theorem keepD (W : Valuation τ sig (Elt F)) (r : Ref sig .tc)
    (h : r ∈ [main_v3, main_v6, main_v31, main_arg5, main_arg6, main_arg7, main_arg8, main_arg9, main_arg10] := by decide) :
    after opsD W (Proc.devRef .tc r : DevRef τ sig) = W (Proc.devRef .tc r) := by
  simp only [List.mem_cons, List.not_mem_nil, or_false] at h
  rcases h with rfl | rfl | rfl | rfl | rfl | rfl | rfl | rfl | rfl
  all_goals exact after_of_forall_not_mem _ _ (by not_written)

set_option maxRecDepth 8192 in
/-- The fifth window leaves the end points, the coefficients and the later layers' arguments. -/
theorem keepE (W : Valuation τ sig (Elt F)) (r : Ref sig .tc)
    (h : r ∈ [main_v3, main_v6, main_v31, main_arg7, main_arg8, main_arg9, main_arg10] := by decide) :
    after opsE W (Proc.devRef .tc r : DevRef τ sig) = W (Proc.devRef .tc r) := by
  simp only [List.mem_cons, List.not_mem_nil, or_false] at h
  rcases h with rfl | rfl | rfl | rfl | rfl | rfl | rfl
  all_goals exact after_of_forall_not_mem _ _ (by not_written)

set_option maxRecDepth 8192 in
/-- The sixth window leaves the last layer's arguments. -/
theorem keepF (W : Valuation τ sig (Elt F)) (r : Ref sig .tc)
    (h : r ∈ [main_arg9, main_arg10] := by decide) :
    after opsF W (Proc.devRef .tc r : DevRef τ sig) = W (Proc.devRef .tc r) := by
  simp only [List.mem_cons, List.not_mem_nil, or_false] at h
  rcases h with rfl | rfl
  all_goals exact after_of_forall_not_mem _ _ (by not_written)

/-! ## The whole -/

set_option maxRecDepth 16384 in
set_option maxHeartbeats 4000000 in
/-- The fold at the result buffer is the network at the eleven arguments: the fold over the windows in order; from
    the last window to the first, the window's result is read as its stage of what the windows before it left, and
    each buffer the window passes through is read as it was before the window. What is left is Cert.Stages.out
    unfolded. -/
theorem out_eq (V : Valuation τ sig (Elt F)) :
    after ops V (main_v77 : DevRef τ sig)
      = Cert.Stages.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  rw [after_ops]
  -- the log-softmax, of the last dense layer, of the second propagation layer
  rw [outH, outG, outF, keepF _ main_arg9, keepF _ main_arg10]
  -- the first propagation layer
  rw [outE, keepE _ main_v3, keepE _ main_v6, keepE _ main_v31, keepE _ main_arg7, keepE _ main_arg8, keepE _ main_arg9,
    keepE _ main_arg10]
  -- the first dense layer
  rw [outD, keepD _ main_v3, keepD _ main_v6, keepD _ main_v31, keepD _ main_arg5, keepD _ main_arg6, keepD _ main_arg7,
    keepD _ main_arg8, keepD _ main_arg9, keepD _ main_arg10]
  -- the coefficients
  rw [outC, keepC _ main_v3, keepC _ main_v6, keepC _ main_arg0, keepC _ main_arg3, keepC _ main_arg4, keepC _ main_arg5,
    keepC _ main_arg6, keepC _ main_arg7, keepC _ main_arg8, keepC _ main_arg9, keepC _ main_arg10]
  -- the scaling
  rw [outB, keepB _ main_v3, keepB _ main_v6, keepB _ main_v8, keepB _ main_arg0, keepB _ main_arg3, keepB _ main_arg4,
    keepB _ main_arg5, keepB _ main_arg6, keepB _ main_arg7, keepB _ main_arg8, keepB _ main_arg9, keepB _ main_arg10]
  -- the end points and the weights
  rw [outA_src, outA_dst, outA_wt, keepA _ main_arg0, keepA _ main_arg3, keepA _ main_arg4, keepA _ main_arg5,
    keepA _ main_arg6, keepA _ main_arg7, keepA _ main_arg8, keepA _ main_arg9, keepA _ main_arg10]
  rfl

end Cert.ReferenceIdeal.HandRun

end
-- ==== Proof.lean ====
/-
  A stacked graph convolution network (two propagation layers between a first dense layer with a leaky rectifier and a
  last dense layer with the logarithm of the softmax of each row) over 100000 nodes and 1600000 weighted edges, written
  once as an array program and once with its dense stages as six vector-unit kernels, each run over 25 blocks of 4000
  rows. At the ideal values the two end with the same result table.

  Both programs compute the edge coefficients, and each propagation step (gather the rows at the edges' starts, scale,
  add up at the edges' ends), by the same array operations in the same order. The kernels differ from the array
  program's dense stages only in ways that change no value on the extended reals: a product accumulated into zero
  against a plain product; operands passed through a change of float format; a bias laid as a one-row table repeated
  down the rows against a vector placed along the rows; the rows handled 4000 at a time (each stage acts row by row, and
  the 25 blocks tile the rows); and in the last stage a second maximum with -∞ and a sum started from 0 in the array
  program. So no finiteness of the inputs is used. The whole network of the eleven argument tables is Cert.Stages.out.

  The kernel program's frames are the generated ones; its run with the result named, each region's table as one stage
  of what the region found, and the carrying of every table between stages are in the modules imported here; the
  array program's run is the fold of its operations in order.
-/
import proofs.«161979_j73323681677856_1_alg».proof.Defs
import proofs.«161979_j73323681677856_1_alg».proof.Proof.Gen.Kernel
import proofs.«161979_j73323681677856_1_alg».proof.Proof.Gen.Kernel.Frame
import proofs.«161979_j73323681677856_1_alg».proof.Proof.Gen.KernelIdeal
import proofs.«161979_j73323681677856_1_alg».proof.Proof.Gen.KernelIdeal.Frame
import proofs.«161979_j73323681677856_1_alg».proof.Proof.Gen.ReferenceIdeal
import proofs.«161979_j73323681677856_1_alg».proof.Proof.Gen.Pre_finite_inputs
import proofs.«161979_j73323681677856_1_alg».proof.Proof.Stages
import proofs.«161979_j73323681677856_1_alg».proof.Proof.KernelRun
import proofs.«161979_j73323681677856_1_alg».proof.Proof.KernelChain
import proofs.«161979_j73323681677856_1_alg».proof.Proof.RefRun
import proofs.«161979_j73323681677856_1_alg».proof.Proof.RefOut

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The array program runs and leaves its arguments as launched: its operations write fresh tables only. -/
theorem frame_ri : Cert.frame_ReferenceIdeal := fun m ρ _ =>
  (θ_run Cert.ReferenceIdeal.defs _ _).mono (fun r h c =>
    ⟨(h c Cert.ReferenceIdeal.main_arg0).trans (Cert.ReferenceIdeal.HandRun.arg0_eq _),
     (h c Cert.ReferenceIdeal.main_arg1).trans (Cert.ReferenceIdeal.HandRun.arg1_eq _),
     (h c Cert.ReferenceIdeal.main_arg2).trans (Cert.ReferenceIdeal.HandRun.arg2_eq _),
     (h c Cert.ReferenceIdeal.main_arg3).trans (Cert.ReferenceIdeal.HandRun.arg3_eq _),
     (h c Cert.ReferenceIdeal.main_arg4).trans (Cert.ReferenceIdeal.HandRun.arg4_eq _),
     (h c Cert.ReferenceIdeal.main_arg5).trans (Cert.ReferenceIdeal.HandRun.arg5_eq _),
     (h c Cert.ReferenceIdeal.main_arg6).trans (Cert.ReferenceIdeal.HandRun.arg6_eq _),
     (h c Cert.ReferenceIdeal.main_arg7).trans (Cert.ReferenceIdeal.HandRun.arg7_eq _),
     (h c Cert.ReferenceIdeal.main_arg8).trans (Cert.ReferenceIdeal.HandRun.arg8_eq _),
     (h c Cert.ReferenceIdeal.main_arg9).trans (Cert.ReferenceIdeal.HandRun.arg9_eq _),
     (h c Cert.ReferenceIdeal.main_arg10).trans (Cert.ReferenceIdeal.HandRun.arg10_eq _)⟩)
    (Cert.ReferenceIdeal.HandRun.run_main (F := Ideal) m ρ)

/-- The idealization rewrote no operation. -/
theorem preserves : Cert.preserves_Kernel_KernelIdeal := trivial

/-- From memories agreeing on the arguments both programs end with the network of the argument tables. -/
theorem algebraic : Cert.algebraic_KernelIdeal_ReferenceIdeal := by
  intro m ρ m' ρ' _ hagree
  refine ⟨fun c => Cert.Stages.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.value m ρ c), (h c).2⟩)
      (Cert.KernelIdeal.ValueRun.run_named (F := Ideal) m ρ)
  · refine (θ_run Cert.ReferenceIdeal.defs _ _).mono (fun r h c => ⟨?_,
      (h c Cert.ReferenceIdeal.main_arg0).trans (Cert.ReferenceIdeal.HandRun.arg0_eq _),
      (h c Cert.ReferenceIdeal.main_arg1).trans (Cert.ReferenceIdeal.HandRun.arg1_eq _),
      (h c Cert.ReferenceIdeal.main_arg2).trans (Cert.ReferenceIdeal.HandRun.arg2_eq _),
      (h c Cert.ReferenceIdeal.main_arg3).trans (Cert.ReferenceIdeal.HandRun.arg3_eq _),
      (h c Cert.ReferenceIdeal.main_arg4).trans (Cert.ReferenceIdeal.HandRun.arg4_eq _),
      (h c Cert.ReferenceIdeal.main_arg5).trans (Cert.ReferenceIdeal.HandRun.arg5_eq _),
      (h c Cert.ReferenceIdeal.main_arg6).trans (Cert.ReferenceIdeal.HandRun.arg6_eq _),
      (h c Cert.ReferenceIdeal.main_arg7).trans (Cert.ReferenceIdeal.HandRun.arg7_eq _),
      (h c Cert.ReferenceIdeal.main_arg8).trans (Cert.ReferenceIdeal.HandRun.arg8_eq _),
      (h c Cert.ReferenceIdeal.main_arg9).trans (Cert.ReferenceIdeal.HandRun.arg9_eq _),
      (h c Cert.ReferenceIdeal.main_arg10).trans (Cert.ReferenceIdeal.HandRun.arg10_eq _)⟩)
      (Cert.ReferenceIdeal.HandRun.run_main (F := Ideal) m' ρ')
    obtain ⟨h0, h1, h2, h3, h4, h5, h6, h7, h8, h9, h10⟩ := hagree c
    refine (h c Cert.ReferenceIdeal.main_v77).trans ((Cert.ReferenceIdeal.HandRun.out_eq _).trans ?_)
    show Cert.Stages.out (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) = _
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
